-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x512x512 : Shape := ⟨3, ![64, 512, 512]⟩
abbrev S512 : Shape := ⟨1, ![512]⟩
abbrev S_ : Shape := ⟨0, ![]⟩

class Facts : Prop where
  bcast_S_S64x512x512 : S_.BroadcastsInDim S64x512x512 (![] : Fin 0 → Fin S64x512x512.rank)
  reducesTo_S64x512x512_S_d0_1_2 : S64x512x512.ReducesTo [0, 1, 2] S_
  h_S_ : 0 < S_.numel
  bcast_S_S512 : S_.BroadcastsInDim S512 (![] : Fin 0 → Fin S512.rank)
  reducesTo_S512_S_d0 : S512.ReducesTo [0] S_

variable [Facts]

def fn {F : FTy → Type} [FloatOps F] (main_arg0 : FVec F S64x512x512 .f32) (main_arg1 : FVec F S512 .f32) (main_arg2 : FVec F S512 .f32) : IVec S_ 1 :=
  let main_v0 : FVec F S64x512x512 .f32 := Host.absf main_arg0
  let main_cst : FVec F S_ .f32 := constant S_ .f32 0x7F800000#32
  let main_v1 : FVec F S64x512x512 .f32 := broadcastInDim S64x512x512 ![] bcast_S_S64x512x512 main_cst
  let main_v2 : IVec S64x512x512 1 := cmpf .olt main_v0 main_v1
  let main_c : IVec S_ 1 := constantI S_ 1 1#1
  let main_v3 : IVec S_ 1 := (fun x v => Host.reduce IntOp.andi x v reducesTo_S64x512x512_S_d0_1_2 h_S_) main_v2 main_c
  let main_v4 : FVec F S512 .f32 := Host.absf main_arg1
  let main_cst_0 : FVec F S_ .f32 := constant S_ .f32 0x7F800000#32
  let main_v5 : FVec F S512 .f32 := broadcastInDim S512 ![] bcast_S_S512 main_cst_0
  let main_v6 : IVec S512 1 := cmpf .olt main_v4 main_v5
  let main_c_1 : IVec S_ 1 := constantI S_ 1 1#1
  let main_v7 : IVec S_ 1 := (fun x v => Host.reduce IntOp.andi x v reducesTo_S512_S_d0 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  main_v13
-- ==== Kernel.lean ====
abbrev S64x512x512 : Shape := ⟨3, ![64, 512, 512]⟩
abbrev S512 : Shape := ⟨1, ![512]⟩
abbrev S32768x512 : Shape := ⟨2, ![32768, 512]⟩
abbrev S1x512 : Shape := ⟨2, ![1, 512]⟩
abbrev S2x8x512 : Shape := ⟨3, ![2, 8, 512]⟩
abbrev S4096x512 : Shape := ⟨2, ![4096, 512]⟩
abbrev S1x8x512 : Shape := ⟨3, ![1, 8, 512]⟩
abbrev S8x512 : Shape := ⟨2, ![8, 512]⟩
abbrev S512x8x512 : Shape := ⟨3, ![512, 8, 512]⟩
abbrev S16x512 : Shape := ⟨2, ![16, 512]⟩

abbrev nBuf : Space → Nat
  | .hbm => 12
  | .vmem => 14
  | .smem => 0
  | _ => 0

abbrev bufTy : (tb : Table) → Fin (tcTables nBuf tb) → BufTy
  | .hbm, ⟨0, _⟩ => ⟨S64x512x512, .f32⟩
  | .hbm, ⟨1, _⟩ => ⟨S512, .f32⟩
  | .hbm, ⟨2, _⟩ => ⟨S512, .f32⟩
  | .hbm, ⟨3, _⟩ => ⟨S32768x512, .f32⟩
  | .hbm, ⟨4, _⟩ => ⟨S1x512, .f32⟩
  | .hbm, ⟨5, _⟩ => ⟨S1x512, .f32⟩
  | .hbm, ⟨6, _⟩ => ⟨S2x8x512, .f32⟩
  | .hbm, ⟨7, _⟩ => ⟨S2x8x512, .f32⟩
  | .hbm, ⟨8, _⟩ => ⟨S16x512, .f32⟩
  | .hbm, ⟨9, _⟩ => ⟨S16x512, .f32⟩
  | .hbm, ⟨10, _⟩ => ⟨S32768x512, .f32⟩
  | .hbm, ⟨11, _⟩ => ⟨S64x512x512, .f32⟩
  | .local _ .vmem, ⟨0, _⟩ => ⟨S4096x512, .f32⟩
  | .local _ .vmem, ⟨1, _⟩ => ⟨S4096x512, .f32⟩
  | .local _ .vmem, ⟨2, _⟩ => ⟨S1x8x512, .f32⟩
  | .local _ .vmem, ⟨3, _⟩ => ⟨S1x8x512, .f32⟩
  | .local _ .vmem, ⟨4, _⟩ => ⟨S1x8x512, .f32⟩
  | .local _ .vmem, ⟨5, _⟩ => ⟨S1x8x512, .f32⟩
  | .local _ .vmem, ⟨6, _⟩ => ⟨S4096x512, .f32⟩
  | .local _ .vmem, ⟨7, _⟩ => ⟨S4096x512, .f32⟩
  | .local _ .vmem, ⟨8, _⟩ => ⟨S16x512, .f32⟩
  | .local _ .vmem, ⟨9, _⟩ => ⟨S16x512, .f32⟩
  | .local _ .vmem, ⟨10, _⟩ => ⟨S1x512, .f32⟩
  | .local _ .vmem, ⟨11, _⟩ => ⟨S1x512, .f32⟩
  | .local _ .vmem, ⟨12, _⟩ => ⟨S4096x512, .f32⟩
  | .local _ .vmem, ⟨13, _⟩ => ⟨S4096x512, .f32⟩
  | _, _ => ⟨S64x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg5_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem5_1 : DmaSem sig := 13

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4096x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x8x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4096x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S16x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S16x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x512 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S4096x512 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  shapeCasts_S64x512x512_S32768x512 : S64x512x512.ShapeCasts S32768x512
  shapeCasts_S512_S1x512 : S512.ShapeCasts S1x512
  inb_S1x8x512_S1x8x512_0_0_0 : ∀ a, (![0, 0, 0] : Fin 3 → Nat) a + S1x8x512.size a ≤ S1x8x512.size a
  h_S1x8x512 : 0 < S1x8x512.numel
  shapeCasts_S1x8x512_S8x512 : S1x8x512.ShapeCasts S8x512
  shapeCasts_S8x512_S1x8x512 : S8x512.ShapeCasts S1x8x512
  inb_S4096x512_S4096x512_0_0 : ∀ a, (![0, 0] : Fin 2 → Nat) a + S4096x512.size a ≤ S4096x512.size a
  h_S4096x512 : 0 < S4096x512.numel
  shapeCasts_S4096x512_S4096x512 : S4096x512.ShapeCasts S4096x512
  shapeCasts_S4096x512_S512x8x512 : S4096x512.ShapeCasts S512x8x512
  reduces_S512x8x512_S8x512 : S512x8x512.Reduces [0] S8x512
  shapeCasts_S2x8x512_S16x512 : S2x8x512.ShapeCasts S16x512
  inb_S16x512_S16x512_0_0 : ∀ a, (![0, 0] : Fin 2 → Nat) a + S16x512.size a ≤ S16x512.size a
  h_S16x512 : 0 < S16x512.numel
  shapeCasts_S16x512_S16x512 : S16x512.ShapeCasts S16x512
  reduces_S16x512_S512 : S16x512.Reduces [0] S512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S4096x512 : S1x512.Broadcasts S4096x512
  shapeCasts_S32768x512_S64x512x512 : S32768x512.ShapeCasts S64x512x512
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x512.size a ≤ S32768x512.size a
  hwx0_0 : ∀ i : grid0.Coords, EltTy.bits .f32 = 32 ∨ (Rect.block (s := S32768x512) S4096x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x8x512.size a ≤ S2x8x512.size a
  hwx0_1 : ∀ i : grid0.Coords, EltTy.bits .f32 = 32 ∨ (Rect.block (s := S2x8x512) S1x8x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x8x512.size a ≤ S2x8x512.size a
  hwx0_2 : ∀ i : grid0.Coords, EltTy.bits .f32 = 32 ∨ (Rect.block (s := S2x8x512) S1x8x512.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4096x512.size a ≤ S32768x512.size a
  hwx1_0 : ∀ i : grid1.Coords, EltTy.bits .f32 = 32 ∨ (Rect.block (s := S32768x512) S4096x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S16x512.size a ≤ S16x512.size a
  hwx1_1 : ∀ i : grid1.Coords, EltTy.bits .f32 = 32 ∨ (Rect.block (s := S16x512) S16x512.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S16x512.size a ≤ S16x512.size a
  hwx1_2 : ∀ i : grid1.Coords, EltTy.bits .f32 = 32 ∨ (Rect.block (s := S16x512) S16x512.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x512.size a ≤ S1x512.size a
  hwx1_3 : ∀ i : grid1.Coords, EltTy.bits .f32 = 32 ∨ (Rect.block (s := S1x512) S1x512.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x512.size a ≤ S1x512.size a
  hwx1_4 : ∀ i : grid1.Coords, EltTy.bits .f32 = 32 ∨ (Rect.block (s := S1x512) S1x512.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S4096x512.size a ≤ S32768x512.size a
  hwx1_5 : ∀ i : grid1.Coords, EltTy.bits .f32 = 32 ∨ (Rect.block (s := S32768x512) S4096x512.size (cc1_transform_5 i) (hinb1_5 i)).WholeWords (EltTy.packing .f32)

variable [Facts₀]

abbrev win0_0 : Pipeline.Window sig grid0 :=
  Pipeline.Window.ofSpec (Memref.whole main_v0) S4096x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3_0) S1x8x512.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3_1) S1x8x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v0) S4096x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S16x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v5) S16x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v1) S1x512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v2) S1x512.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v6) S4096x512.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S64x512x512 : Shape := ⟨3, ![64, 512, 512]⟩
abbrev S512 : Shape := ⟨1, ![512]⟩
abbrev S32768x512 : Shape := ⟨2, ![32768, 512]⟩
abbrev S1x512 : Shape := ⟨2, ![1, 512]⟩
abbrev S2x8x512 : Shape := ⟨3, ![2, 8, 512]⟩
abbrev S1024x512 : Shape := ⟨2, ![1024, 512]⟩
abbrev S1x8x512 : Shape := ⟨3, ![1, 8, 512]⟩
abbrev S8x512 : Shape := ⟨2, ![8, 512]⟩
abbrev S128x8x512 : Shape := ⟨3, ![128, 8, 512]⟩
abbrev S_ : Shape := ⟨0, ![]⟩

abbrev nBuf : Space → Nat
  | .hbm => 36
  | .vmem => 12
  | .smem => 0
  | _ => 0

abbrev bufTy : (tb : Table) → Fin (tcTables nBuf tb) → BufTy
  | .hbm, ⟨0, _⟩ => ⟨S64x512x512, .f32⟩
  | .hbm, ⟨1, _⟩ => ⟨S512, .f32⟩
  | .hbm, ⟨2, _⟩ => ⟨S512, .f32⟩
  | .hbm, ⟨3, _⟩ => ⟨S32768x512, .f32⟩
  | .hbm, ⟨4, _⟩ => ⟨S1x512, .f32⟩
  | .hbm, ⟨5, _⟩ => ⟨S1x512, .f32⟩
  | .hbm, ⟨6, _⟩ => ⟨S2x8x512, .f32⟩
  | .hbm, ⟨7, _⟩ => ⟨S2x8x512, .f32⟩
  | .hbm, ⟨8, _⟩ => ⟨S_, .f32⟩
  | .hbm, ⟨9, _⟩ => ⟨S512, .f32⟩
  | .hbm, ⟨10, _⟩ => ⟨S_, .f32⟩
  | .hbm, ⟨11, _⟩ => ⟨S512, .f32⟩
  | .hbm, ⟨12, _⟩ => ⟨S512, .f32⟩
  | .hbm, ⟨13, _⟩ => ⟨S_, .f32⟩
  | .hbm, ⟨14, _⟩ => ⟨S512, .f32⟩
  | .hbm, ⟨15, _⟩ => ⟨S_, .f32⟩
  | .hbm, ⟨16, _⟩ => ⟨S512, .f32⟩
  | .hbm, ⟨17, _⟩ => ⟨S512, .f32⟩
  | .hbm, ⟨18, _⟩ => ⟨S512, .f32⟩
  | .hbm, ⟨19, _⟩ => ⟨S512, .f32⟩
  | .hbm, ⟨20, _⟩ => ⟨S_, .f32⟩
  | .hbm, ⟨21, _⟩ => ⟨S512, .f32⟩
  | .hbm, ⟨22, _⟩ => ⟨S512, .f32⟩
  | .hbm, ⟨23, _⟩ => ⟨S512, .f32⟩
  | .hbm, ⟨24, _⟩ => ⟨S_, .f32⟩
  | .hbm, ⟨25, _⟩ => ⟨S512, .f32⟩
  | .hbm, ⟨26, _⟩ => ⟨S512, .f32⟩
  | .hbm, ⟨27, _⟩ => ⟨S512, .f32⟩
  | .hbm, ⟨28, _⟩ => ⟨S512, .f32⟩
  | .hbm, ⟨29, _⟩ => ⟨S512, .f32⟩
  | .hbm, ⟨30, _⟩ => ⟨S512, .f32⟩
  | .hbm, ⟨31, _⟩ => ⟨S512, .f32⟩
  | .hbm, ⟨32, _⟩ => ⟨S1x512, .f32⟩
  | .hbm, ⟨33, _⟩ => ⟨S1x512, .f32⟩
  | .hbm, ⟨34, _⟩ => ⟨S32768x512, .f32⟩
  | .hbm, ⟨35, _⟩ => ⟨S64x512x512, .f32⟩
  | .local _ .vmem, ⟨0, _⟩ => ⟨S1024x512, .f32⟩
  | .local _ .vmem, ⟨1, _⟩ => ⟨S1024x512, .f32⟩
  | .local _ .vmem, ⟨2, _⟩ => ⟨S1x8x512, .f32⟩
  | .local _ .vmem, ⟨3, _⟩ => ⟨S1x8x512, .f32⟩
  | .local _ .vmem, ⟨4, _⟩ => ⟨S1x8x512, .f32⟩
  | .local _ .vmem, ⟨5, _⟩ => ⟨S1x8x512, .f32⟩
  | .local _ .vmem, ⟨6, _⟩ => ⟨S1024x512, .f32⟩
  | .local _ .vmem, ⟨7, _⟩ => ⟨S1024x512, .f32⟩
  | .local _ .vmem, ⟨8, _⟩ => ⟨S1x512, .f32⟩
  | .local _ .vmem, ⟨9, _⟩ => ⟨S1x512, .f32⟩
  | .local _ .vmem, ⟨10, _⟩ => ⟨S1024x512, .f32⟩
  | .local _ .vmem, ⟨11, _⟩ => ⟨S1024x512, .f32⟩
  | _, _ => ⟨S64x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_cst : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x8x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1024x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  shapeCasts_S64x512x512_S32768x512 : S64x512x512.ShapeCasts S32768x512
  shapeCasts_S512_S1x512 : S512.ShapeCasts S1x512
  inb_S1x8x512_S1x8x512_0_0_0 : ∀ a, (![0, 0, 0] : Fin 3 → Nat) a + S1x8x512.size a ≤ S1x8x512.size a
  h_S1x8x512 : 0 < S1x8x512.numel
  shapeCasts_S1x8x512_S8x512 : S1x8x512.ShapeCasts S8x512
  shapeCasts_S8x512_S1x8x512 : S8x512.ShapeCasts S1x8x512
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  shapeCasts_S1024x512_S128x8x512 : S1024x512.ShapeCasts S128x8x512
  reduces_S128x8x512_S8x512 : S128x8x512.Reduces [0] S8x512
  reducesTo_S2x8x512_S512_d0_1 : S2x8x512.ReducesTo [0, 1] S512
  h_S_ : 0 < S_.numel
  bcast_S_S512 : S_.BroadcastsInDim S512 (![] : Fin 0 → Fin S512.rank)
  shapeCasts_S1x512_S512 : S1x512.ShapeCasts S512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  shapeCasts_S32768x512_S64x512x512 : S32768x512.ShapeCasts S64x512x512
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S32768x512.size a
  hwx0_0 : ∀ i : grid0.Coords, EltTy.bits .f32 = 32 ∨ (Rect.block (s := S32768x512) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x8x512.size a ≤ S2x8x512.size a
  hwx0_1 : ∀ i : grid0.Coords, EltTy.bits .f32 = 32 ∨ (Rect.block (s := S2x8x512) S1x8x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x8x512.size a ≤ S2x8x512.size a
  hwx0_2 : ∀ i : grid0.Coords, EltTy.bits .f32 = 32 ∨ (Rect.block (s := S2x8x512) S1x8x512.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x512.size a ≤ S32768x512.size a
  hwx1_0 : ∀ i : grid1.Coords, EltTy.bits .f32 = 32 ∨ (Rect.block (s := S32768x512) S1024x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x512.size a ≤ S1x512.size a
  hwx1_1 : ∀ i : grid1.Coords, EltTy.bits .f32 = 32 ∨ (Rect.block (s := S1x512) S1x512.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x512.size a ≤ S1x512.size a
  hwx1_2 : ∀ i : grid1.Coords, EltTy.bits .f32 = 32 ∨ (Rect.block (s := S1x512) S1x512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x512.size a ≤ S32768x512.size a
  hwx1_3 : ∀ i : grid1.Coords, EltTy.bits .f32 = 32 ∨ (Rect.block (s := S32768x512) S1024x512.size (cc1_transform_3 i) (hinb1_3 i)).WholeWords (EltTy.packing .f32)

variable [Facts₀]

abbrev win0_0 : Pipeline.Window sig grid0 :=
  Pipeline.Window.ofSpec (Memref.whole main_v0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3_0) S1x8x512.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3_1) S1x8x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v0) S1024x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v22) S1x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v23) S1x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v24) S1024x512.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== Proof.KRun.lean ====
/-
  The run of @main with its result named. The program is five segments — a stretch of host operations, the first
  kernel's region, a second stretch, the second kernel's region, a last stretch — and the buffer contents at each
  boundary are a fold from the launch memory: a stretch applies its operations, a region replaces its arrays by what
  its write-backs leave. The last boundary's contents hold every unscoped buffer of the final state, so the result
  buffer ends at the fold's value there, and the three argument arrays end as launched.
-/
import proofs.«100808_g2000204283482131_pallaspilot1_46_7_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault; the result buffer ends at the last boundary's
    contents and the argument arrays as launched. -/
theorem run : θ_run defs (onTc (τ := τ) (main (F := F))) ⟨m, fun _ => 0, ρ⟩ (fun r => ∀ c : Dev nD,
      r.2.mem ((c.tc : Thread nD τ).loc main_v7) = W5 m ρ c (Proc.devRef .tc main_v7)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v7 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c)⟩)

end Cert.KernelIdeal.RunValue

end
-- ==== Proof.RRun.lean ====
/-
  The run of @main with its result named. The program is five segments — a stretch of host operations, the first
  kernel's region, a second stretch, the second kernel's region, a last stretch — and the buffer contents at each
  boundary are a fold from the launch memory: a stretch applies its operations, a region replaces its arrays by what
  its write-backs leave. The last boundary's contents hold every unscoped buffer of the final state, so the result
  buffer ends at the fold's value there, and the three argument arrays end as launched.
-/
import proofs.«100808_g2000204283482131_pallaspilot1_46_7_alg».proof.Proof.Gen.ReferenceIdeal.Frame

set_option maxRecDepth 16384

noncomputable section

namespace Cert.ReferenceIdeal.RunValue

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault; the result buffer ends at the last boundary's
    contents and the argument arrays as launched. -/
theorem run : θ_run defs (onTc (τ := τ) (main (F := F))) ⟨m, fun _ => 0, ρ⟩ (fun r => ∀ c : Dev nD,
      r.2.mem ((c.tc : Thread nD τ).loc main_v25) = W5 m ρ c (Proc.devRef .tc main_v25)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v25 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c)⟩)

end Cert.ReferenceIdeal.RunValue

end
-- ==== Proof.KStatsCases.lean ====
/-
  The first kernel's body, case by case. At a grid point whose inner coordinate is zero the body first stores the zero
  block into each of the two output blocks and then adds the input block's partial sums to what it reads back; at every
  other point it adds them to what the block held before. So after the body each output block holds ONE payload of the
  input block and the block's earlier contents (the zero block in the first case): the single covering store's value,
  its loads reading whole buffers.
-/
import proofs.«100808_g2000204283482131_pallaspilot1_46_7_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Stats

open Cert.KernelIdeal Cert.KernelIdeal.Gen

variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl

/-- A point that does not reset: the sums' block holds its earlier contents plus the input block's partial sums. -/
theorem out_B_1 (c : Dev nD) (i : grid0.Coords) (a2 : Memref sig .tc .vmem S4096x512 .f32) (h2 : a2.IsWhole)
    (a3 : Memref sig .tc .vmem S1x8x512 .f32) (h3 : a3.IsWhole) (a4 : Memref sig .tc .vmem S1x8x512 .f32) (h4 : a4.IsWhole)
    (hc : ¬cond0_0 i) (x : Vec F S4096x512 .f32) (xo1 xo2 : Vec F S1x8x512 .f32) :
    out0_B_1 c i a2 h2 a3 h3 a4 h4 hc x xo1 xo2 = k0_pay4 x xo1 := by
  unfold out0_B_1
  rw [View.read_writes_eq_canon _ _ _ (cover0_B_1 c i a2 h2 a3 h3 a4 h4 hc x xo1 xo2)]
  unfold kernelRun0_B
  dsimp only
  rw [View.canon_unit_zero hz3]
  simp only [View.readAt_eq_ld, h2.read_unread, h3.read_unread, View.ld_unit_zero (S := S4096x512) hz2,
    View.ld_unit_zero (S := S1x8x512) hz3]

/-- The same for the block of sums of squares. -/
theorem out_B_2 (c : Dev nD) (i : grid0.Coords) (a2 : Memref sig .tc .vmem S4096x512 .f32) (h2 : a2.IsWhole)
    (a3 : Memref sig .tc .vmem S1x8x512 .f32) (h3 : a3.IsWhole) (a4 : Memref sig .tc .vmem S1x8x512 .f32) (h4 : a4.IsWhole)
    (hc : ¬cond0_0 i) (x : Vec F S4096x512 .f32) (xo1 xo2 : Vec F S1x8x512 .f32) :
    out0_B_2 c i a2 h2 a3 h3 a4 h4 hc x xo1 xo2 = k0_pay5 x xo2 := by
  unfold out0_B_2
  rw [View.read_writes_eq_canon _ _ _ (cover0_B_2 c i a2 h2 a3 h3 a4 h4 hc x xo1 xo2)]
  unfold kernelRun0_B
  dsimp only
  rw [View.canon_unit_zero hz3]
  simp only [View.readAt_eq_ld, h2.read_unread, h4.read_unread, View.ld_unit_zero (S := S4096x512) hz2,
    View.ld_unit_zero (S := S1x8x512) hz3]

/-- A point that resets: the zero block is stored, read back, and the input block's partial sums added to it. -/
theorem out_A_1 (c : Dev nD) (i : grid0.Coords) (a2 : Memref sig .tc .vmem S4096x512 .f32) (h2 : a2.IsWhole)
    (a3 : Memref sig .tc .vmem S1x8x512 .f32) (h3 : a3.IsWhole) (a4 : Memref sig .tc .vmem S1x8x512 .f32) (h4 : a4.IsWhole)
    (hc : cond0_0 i) (x : Vec F S4096x512 .f32) :
    out0_A_1 c i a2 h2 a3 h3 a4 h4 hc x = k0_pay4 x k0_pay1 := by
  unfold out0_A_1
  rw [View.read_writes_eq_canon _ _ _ (cover0_A_1 c i a2 h2 a3 h3 a4 h4 hc x)]
  unfold kernelRun0_A
  dsimp only
  sl_unfold_words
  rw [View.canon_cons_unit_zero (S := S1x8x512) hz3, View.readCov_unit_zero (S := S1x8x512) _ hz3]
  simp only [View.readAt_eq_ld, h2.read_unread, View.ld_unit_zero (S := S4096x512) hz2]

/-- The same for the block of sums of squares. -/
theorem out_A_2 (c : Dev nD) (i : grid0.Coords) (a2 : Memref sig .tc .vmem S4096x512 .f32) (h2 : a2.IsWhole)
    (a3 : Memref sig .tc .vmem S1x8x512 .f32) (h3 : a3.IsWhole) (a4 : Memref sig .tc .vmem S1x8x512 .f32) (h4 : a4.IsWhole)
    (hc : cond0_0 i) (x : Vec F S4096x512 .f32) :
    out0_A_2 c i a2 h2 a3 h3 a4 h4 hc x = k0_pay5 x k0_pay2 := by
  unfold out0_A_2
  rw [View.read_writes_eq_canon _ _ _ (cover0_A_2 c i a2 h2 a3 h3 a4 h4 hc x)]
  unfold kernelRun0_A
  dsimp only
  sl_unfold_words
  rw [View.canon_cons_unit_zero (S := S1x8x512) hz3, View.readCov_unit_zero (S := S1x8x512) _ hz3]
  simp only [View.readAt_eq_ld, h2.read_unread, View.ld_unit_zero (S := S4096x512) hz2]

end Cert.KernelIdeal.Stats

end
-- ==== Proof.Spec.lean ====
/-
  The mathematics both programs compute, stated once and over no program: batch normalisation of a [32768, 512]
  array per column. For column h, with t the column's total and q the total of its squares,
    mean = t · 2⁻¹⁵,  var = max (q · 2⁻¹⁵ − mean²) 0,  scale = γ · (var + ε)^(−1/2),  shift = β − mean · scale,
  and entry (r, h) of the result is x(r, h) · scale + shift. The two literals are kept as the f32 words both programs
  print (the same word on both sides is never evaluated). The column totals are plain sums over all 32768 rows; each
  program reaches them through its own grouping of the rows (blocks of rows summed eight residues apart, the blocks
  accumulated over a grid axis, the partial sums added up at the end), and re-grouping a finite sum in a commutative
  monoid does not change it — the extended reals under + are one, infinities included, so no finiteness is used.
-/
import Idealize.ShloMosaic.PureOps.Ideal
import Idealize.ShloMosaic.PureOps.Ideal.Laws
import Idealize.ShloMosaic.Lib.ValueIdx

noncomputable section

namespace Cert.BN

open Idealize.ShloMosaic Idealize.ShloMosaic.ValueIdx

/-- The reciprocal of the row count, as printed: the f32 word of 2⁻¹⁵. -/
abbrev invN : EReal := Ideal.ofBits .f32 0x38000000#32
/-- The variance offset ε, as printed: the f32 word nearest 10⁻⁵. -/
abbrev eps : EReal := Ideal.ofBits .f32 0x3727C5AC#32

/-- A column's scale from its total `t`, its total of squares `q` and its γ. -/
def scaleOf (t q g : EReal) : EReal := g * Ideal.rsqrt (max (q * invN - t * invN * (t * invN)) 0 + eps)
/-- A column's shift from the same and its β. -/
def shiftOf (t q g b : EReal) : EReal := b - t * invN * scaleOf t q g

/-- A [32768, 512] array read at natural-number coordinates (zero outside the array): sums over rows are then sums
    over ranges of naturals, which re-group by arithmetic. -/
def colN (x : (⟨2, ![32768, 512]⟩ : Shape).Idx → EReal) (r h : ℕ) : EReal :=
  if hh : r < 32768 ∧ h < 512 then x (ix2 ⟨r, hh.1⟩ ⟨h, hh.2⟩) else 0

theorem colN_eq (x : (⟨2, ![32768, 512]⟩ : Shape).Idx → EReal) (r : Fin 32768) (h : Fin 512) :
    colN x r.val h.val = x (ix2 r h) := by
  unfold colN
  rw [dif_pos ⟨r.isLt, h.isLt⟩]

/-- Column `h`'s total over all rows, -/
def tot (x : (⟨2, ![32768, 512]⟩ : Shape).Idx → EReal) (h : ℕ) : EReal := ∑ r ∈ Finset.range 32768, colN x r h
/-- and the total of its squares. -/
def totSq (x : (⟨2, ![32768, 512]⟩ : Shape).Idx → EReal) (h : ℕ) : EReal :=
  ∑ r ∈ Finset.range 32768, colN x r h * colN x r h

/-- Entry (r, h) of the normalised array, from the array and the two per-column vectors. -/
def bnAt (x : (⟨2, ![32768, 512]⟩ : Shape).Idx → EReal) (g b : Fin 512 → EReal) (r : Fin 32768) (h : Fin 512) : EReal :=
  x (ix2 r h) * scaleOf (tot x h.val) (totSq x h.val) (g h) + shiftOf (tot x h.val) (totSq x h.val) (g h) (b h)

/-- The normalised [32768, 512] array. -/
def bnArr (x : (⟨2, ![32768, 512]⟩ : Shape).Idx → EReal) (g b : Fin 512 → EReal) :
    (⟨2, ![32768, 512]⟩ : Shape).Idx → EReal :=
  fun i => bnAt x g b ⟨(i 0).val, idx2_lt0 i⟩ ⟨(i 1).val, idx2_lt1 i⟩

theorem bnArr_ix2 (x : (⟨2, ![32768, 512]⟩ : Shape).Idx → EReal) (g b : Fin 512 → EReal) (r : Fin 32768) (h : Fin 512) :
    bnArr x g b (ix2 r h) = bnAt x g b r h := rfl

/-- The whole result as both programs return it: the argument viewed [32768, 512], normalised, viewed [64, 512, 512]
    again (the two views keep row-major positions). -/
def resultArr (x : (⟨3, ![64, 512, 512]⟩ : Shape).Idx → EReal) (g b : (⟨1, ![512]⟩ : Shape).Idx → EReal) :
    (⟨3, ![64, 512, 512]⟩ : Shape).Idx → EReal :=
  shapeCast ⟨3, ![64, 512, 512]⟩
    (bnArr (shapeCast ⟨2, ![32768, 512]⟩ x (by decide)) (fun h => g (ix1 h)) (fun h => b (ix1 h))) (by decide)

end Cert.BN

end
-- ==== Proof.KStats.lean ====
/-
  What the first kernel leaves in its two result arrays, at exact arithmetic. Its grid is 2 × 4: for each half j the
  4 points (j, 0 … 3) read the 4 consecutive blocks of 4096 rows of that half, and each adds to the half's [8, 512]
  block the block's rows summed eight apart: entry (s, h) gains the sum over a of row 8a + s of the block (512 terms).
  The first point of a half starts from the zero block; the half's block is written back after its last point. So the
  result array's entry (j, s, h) is the sum over the 4 blocks k of half j and the 512 groups a of
  x((4j + k)·4096 + 8a + s, h) — and the second result array the same sum of the squares.
-/
import proofs.«100808_g2000204283482131_pallaspilot1_46_7_alg».proof.Proof.KStatsCases
import proofs.«100808_g2000204283482131_pallaspilot1_46_7_alg».proof.Proof.Spec
import Idealize.ShloMosaic.PureOps.Ideal.Laws
import Idealize.ShloMosaic.Lib.ValueIdx

noncomputable section

open Idealize.ShloMosaic Idealize.ShloMosaic.TcCoe Idealize.SL.Sem
open Idealize.ShloMosaic.Pipeline (Dat)

namespace Cert.KernelIdeal.Stats

open Cert.KernelIdeal Cert.KernelIdeal.Gen Idealize.ShloMosaic.ValueIdx Cert.BN Finset

/-! ## The payloads at an index -/

/-- The reset stores zeros. -/
theorem pay1_apply (j : S1x8x512.Idx) : k0_pay1 (F := Ideal) j = 0 := by
  show (Ideal.ofBits .f32 0x00000000#32 : EReal) = 0
  exact Ideal.ofBits_zero_f32

theorem pay2_apply (j : S1x8x512.Idx) : k0_pay2 (F := Ideal) j = 0 := by
  show (Ideal.ofBits .f32 0x00000000#32 : EReal) = 0
  exact Ideal.ofBits_zero_f32

/-- The block viewed [512, 8, 512] reads (a, s, h) at row 8a + s. -/
theorem pay3_apply (x : Vec Ideal S4096x512 .f32) (a : Fin 512) (s : Fin 8) (h : Fin 512) :
    k0_pay3 x (ix3 a s h) = x (ix2 ⟨8 * a.val + s.val, by have := a.isLt; have := s.isLt; omega⟩ h) := by
  unfold k0_pay3
  refine (shapeCast_apply _ _ (ix3 a s h) (ix2 ⟨8 * a.val + s.val, by have := a.isLt; have := s.isLt; omega⟩ h) ?_).trans ?_
  · rw [Shape.rowMajor_val_two, Shape.rowMajor_val_three]
    show (8 * a.val + s.val) * 512 + h.val = (a.val * 8 + s.val) * 512 + h.val
    omega
  · exact congrFun (shapeCast_self x _) _

/-- The sums' payload at (0, s, h): what the block held there plus the 512 rows ≡ s (mod 8) of the input block. -/
theorem pay4_apply (x : Vec Ideal S4096x512 .f32) (xo : Vec Ideal S1x8x512 .f32) (s : Fin 8) (h : Fin 512) :
    k0_pay4 x xo (ix3 (0 : Fin 1) s h)
      = xo (ix3 (0 : Fin 1) s h) + ∑ a : Fin 512, x (ix2 ⟨8 * a.val + s.val, by have := a.isLt; have := s.isLt; omega⟩ h) := by
  unfold k0_pay4
  refine (shapeCast_apply _ _ (ix3 (0 : Fin 1) s h) (ix2 s h) ?_).trans ?_
  · rw [Shape.rowMajor_val_two, Shape.rowMajor_val_three]
    show s.val * 512 + h.val = (0 * 8 + s.val) * 512 + h.val
    omega
  · show shapeCast S8x512 xo _ (ix2 s h) + multiReduction .add [0] S8x512 (k0_pay3 x) 0x00000000#32 reduces_S512x8x512_S8x512 (.inl rfl) rfl (ix2 s h) = _
    refine congrArg₂ (· + ·) ?_ ?_
    · refine shapeCast_apply _ _ (ix2 s h) (ix3 (0 : Fin 1) s h) ?_
      rw [Shape.rowMajor_val_two, Shape.rowMajor_val_three]
      show (0 * 8 + s.val) * 512 + h.val = s.val * 512 + h.val
      omega
    · refine (Ideal.multiReduction_add_single (k0_pay3 x) 0x00000000#32 reduces_S512x8x512_S8x512 (.inl rfl) rfl (ix2 s h)).trans ?_
      exact Finset.sum_congr rfl fun a _ => pay3_apply x a s h

/-- The squares' payload likewise. -/
theorem pay5_apply (x : Vec Ideal S4096x512 .f32) (xo : Vec Ideal S1x8x512 .f32) (s : Fin 8) (h : Fin 512) :
    k0_pay5 x xo (ix3 (0 : Fin 1) s h)
      = xo (ix3 (0 : Fin 1) s h) + ∑ a : Fin 512, x (ix2 ⟨8 * a.val + s.val, by have := a.isLt; have := s.isLt; omega⟩ h)
          * x (ix2 ⟨8 * a.val + s.val, by have := a.isLt; have := s.isLt; omega⟩ h) := by
  unfold k0_pay5
  refine (shapeCast_apply _ _ (ix3 (0 : Fin 1) s h) (ix2 s h) ?_).trans ?_
  · rw [Shape.rowMajor_val_two, Shape.rowMajor_val_three]
    show s.val * 512 + h.val = (0 * 8 + s.val) * 512 + h.val
    omega
  · show shapeCast S8x512 xo _ (ix2 s h) + multiReduction .add [0] S8x512 (mulf (k0_pay3 x) (k0_pay3 x)) 0x00000000#32 reduces_S512x8x512_S8x512 (.inl rfl) rfl (ix2 s h) = _
    refine congrArg₂ (· + ·) ?_ ?_
    · refine shapeCast_apply _ _ (ix2 s h) (ix3 (0 : Fin 1) s h) ?_
      rw [Shape.rowMajor_val_two, Shape.rowMajor_val_three]
      show (0 * 8 + s.val) * 512 + h.val = s.val * 512 + h.val
      omega
    · refine (Ideal.multiReduction_add_single (mulf (k0_pay3 x) (k0_pay3 x)) 0x00000000#32 reduces_S512x8x512_S8x512 (.inl rfl) rfl (ix2 s h)).trans ?_
      refine Finset.sum_congr rfl fun a _ => ?_
      exact congrArg₂ (· * ·) (pay3_apply x a s h) (pay3_apply x a s h)

/-! ## The region at any entry contents -/

variable (V : (c : Dev nD) → (b : Ref sig .tc) → Buf (Elt Ideal) ((c : Thread nD τ).loc b))

/-- The [32768, 512] array the region reads, as the region finds it. -/
abbrev X0 (c : Dev nD) : (⟨2, ![32768, 512]⟩ : Shape).Idx → EReal := V c main_v0

/-- The printed index maps over the grid: the input's block is the point's number; each output's block is the half. -/
theorem idx_facts0 : ∀ t : Fin cfg0.N, win0_0.index t (0 : Fin 2) = t.val ∧ win0_0.index t (1 : Fin 2) = 0
    ∧ win0_1.index t (0 : Fin 3) = t.val / 4 ∧ win0_1.index t (1 : Fin 3) = 0 ∧ win0_1.index t (2 : Fin 3) = 0
    ∧ win0_2.index t (0 : Fin 3) = t.val / 4 ∧ win0_2.index t (1 : Fin 3) = 0 ∧ win0_2.index t (2 : Fin 3) = 0 :=
  (by decide +kernel : ∀ t : Fin grid0.N, _)

/-- The input block at point `t` reads row p at row 4096·t + p of the array. -/
theorem iblk_apply (c : Dev nD) (t : Fin cfg0.N) (p : Fin 4096) (h : Fin 512) :
    (iblk0 V c 0 t : Vec Ideal S4096x512 .f32) (ix2 p h) = colN (X0 V c) (t.val * 4096 + p.val) h.val := by
  have hN : t.val < 8 := lt_of_lt_of_eq t.isLt (show cfg0.N = 8 from N_0)
  have hp := p.isLt
  unfold colN
  rw [dif_pos ⟨by omega, h.isLt⟩]
  unfold iblk0
  rw [View.read_apply]
  show V c main_v0 _ = V c main_v0 _
  refine congrArg (V c main_v0) (funext fun a => Fin.ext ?_)
  obtain ⟨e0, e1, -⟩ := idx_facts0 t
  match a with
  | ⟨0, _⟩ => show win0_0.index t (0 : Fin 2) * 4096 + 1 * p.val = t.val * 4096 + p.val; rw [e0]; omega
  | ⟨1, _⟩ => show win0_0.index t (1 : Fin 2) * 512 + 1 * h.val = h.val; rw [e1]; omega

/-- A block's rows ≡ s (mod 8), summed: a range sum over the array's rows. -/
theorem blocksum (c : Dev nD) (t : Fin cfg0.N) (s : Fin 8) (h : Fin 512) (g : EReal → EReal) :
    ∑ a : Fin 512, g ((iblk0 V c 0 t : Vec Ideal S4096x512 .f32) (ix2 ⟨8 * a.val + s.val, by have := a.isLt; have := s.isLt; omega⟩ h))
      = ∑ a ∈ range 512, g (colN (X0 V c) (t.val * 4096 + (8 * a + s.val)) h.val) := by
  rw [← Fin.sum_univ_eq_sum_range (fun a => g (colN (X0 V c) (t.val * 4096 + (8 * a + s.val)) h.val)) 512]
  exact Finset.sum_congr rfl fun a _ => congrArg g (iblk_apply V c t _ h)

/-- The running sum after point `n` of a half: its first n % 4 + 1 blocks. -/
def acc (f : ℕ → EReal) (n s : ℕ) : EReal :=
  ∑ k ∈ range (n % 4 + 1), ∑ a ∈ range 512, f ((n / 4 * 4 + k) * 4096 + (8 * a + s))

theorem acc_reset (f : ℕ → EReal) (n s : ℕ) (h0 : n % 4 = 0) :
    acc f n s = ∑ a ∈ range 512, f (n * 4096 + (8 * a + s)) := by
  unfold acc
  rw [h0, Finset.sum_range_one]
  have e : n / 4 * 4 + 0 = n := by omega
  rw [e]

theorem acc_step (f : ℕ → EReal) (n s : ℕ) (h0 : ¬(n + 1) % 4 = 0) :
    acc f (n + 1) s = acc f n s + ∑ a ∈ range 512, f ((n + 1) * 4096 + (8 * a + s)) := by
  unfold acc
  have e1 : (n + 1) % 4 = n % 4 + 1 := by omega
  have e2 : (n + 1) / 4 = n / 4 := by omega
  rw [e1, e2, Finset.sum_range_succ]
  have e3 : n / 4 * 4 + (n % 4 + 1) = n + 1 := by omega
  rw [e3]

/-- After point `n` the two output blocks hold the running sums of the half's blocks so far, of the entries and of
    their squares — by induction on the point. -/
theorem outsAt_apply (c : Dev nD) : ∀ (n : ℕ) (hn : n < cfg0.N) (s : Fin 8) (h : Fin 512),
    (outsAt0 V c n hn).1 (ix3 (0 : Fin 1) s h) = acc (fun r => colN (X0 V c) r h.val) n s.val
    ∧ (outsAt0 V c n hn).2 (ix3 (0 : Fin 1) s h) = acc (fun r => colN (X0 V c) r h.val * colN (X0 V c) r h.val) n s.val
  | 0, hn, s, h => by
    rw [outsAt0_A V c ⟨0, hn⟩ rfl]
    dsimp only
    rw [out_A_1, out_A_2, pay4_apply, pay5_apply, pay1_apply, pay2_apply, zero_add, zero_add,
      acc_reset _ 0 _ rfl, acc_reset _ 0 _ rfl]
    exact ⟨blocksum V c ⟨0, hn⟩ s h id, blocksum V c ⟨0, hn⟩ s h (fun v => v * v)⟩
  | n + 1, hn, s, h => by
    by_cases h0 : (n + 1) % 4 = 0
    · rw [outsAt0_A V c ⟨n + 1, hn⟩ h0]
      dsimp only
      rw [out_A_1, out_A_2, pay4_apply, pay5_apply, pay1_apply, pay2_apply, zero_add, zero_add,
        acc_reset _ (n + 1) _ h0, acc_reset _ (n + 1) _ h0]
      exact ⟨blocksum V c ⟨n + 1, hn⟩ s h id, blocksum V c ⟨n + 1, hn⟩ s h (fun v => v * v)⟩
    · rw [outsAt0_B V c ⟨n + 1, hn⟩ h0]
      dsimp only
      rw [out_B_1, out_B_2, pay4_apply, pay5_apply, acc_step _ n _ h0, acc_step _ n _ h0]
      obtain ⟨ih1, ih2⟩ := outsAt_apply c n (Nat.lt_of_succ_lt hn) s h
      refine ⟨congrArg₂ (· + ·) ?_ (blocksum V c ⟨n + 1, hn⟩ s h id), congrArg₂ (· + ·) ?_ (blocksum V c ⟨n + 1, hn⟩ s h (fun v => v * v))⟩
      · exact ih1
      · exact ih2

/-! ## The result arrays -/

/-- A [2, 8, 512] array of partial sums of `f` (a function of row and column): entry (j, s, h) sums the 4 blocks of
    half j, the rows ≡ s (mod 8) of each. -/
def partArr (f : ℕ → ℕ → EReal) : (⟨3, ![2, 8, 512]⟩ : Shape).Idx → EReal :=
  fun i => ∑ k ∈ range 4, ∑ a ∈ range 512, f (((i 0).val * 4 + k) * 4096 + (8 * a + (i 1).val)) (i 2).val

/-- A block of an output at a point of the last kind, read against `partArr`: stated over a variable block. -/
theorem flushed_aux (f : ℕ → ℕ → EReal) (n : ℕ) (hK : n % 4 = 3) (v : Vec Ideal S1x8x512 .f32)
    (hv : ∀ (s : Fin 8) (h : Fin 512), v (ix3 (0 : Fin 1) s h) = acc (fun r => f r h.val) n s.val)
    (y : S1x8x512.Idx) (i : (⟨3, ![2, 8, 512]⟩ : Shape).Idx)
    (e0 : (i 0).val = n / 4) (e1 : (i 1).val = (y 1).val) (e2 : (i 2).val = (y 2).val) :
    v y = partArr f i := by
  obtain ⟨z, s, h, rfl⟩ : ∃ (z : Fin 1) (s : Fin 8) (h : Fin 512), y = ix3 z s h := ⟨y 0, y 1, y 2, eq_ix3 y⟩
  obtain rfl : z = 0 := Subsingleton.elim _ _
  rw [hv s h]
  unfold partArr acc
  rw [e0, e1, e2, hK]

theorem flushed1 (c : Dev nD) (t : Fin cfg0.N) (hf : (cfg0.win 1).flush t = true) :
    (dat0 V c).flushed 1 t = ((cfg0.win 1).blk t).view.read (Elt Ideal) (partArr (colN (X0 V c))) := by
  have hK : t.val % 4 = 3 := (flush0_1 t).mp hf
  show (cfg0.win 1).cut (grid0.coords t) ((dat0 V c).after 1 t) = _
  rw [after0_1]
  funext y
  rw [View.read_apply]
  obtain ⟨-, -, e0, e1, e2, -⟩ := idx_facts0 t
  refine flushed_aux (colN (X0 V c)) t.val hK _ (fun s h => (outsAt_apply V c t.val t.isLt s h).1) y _ ?_ ?_ ?_
  · show win0_1.index t (0 : Fin 3) * 1 + 1 * (y 0).val = t.val / 4
    have : (y 0).val < 1 := (y 0).isLt
    rw [e0]; omega
  · show win0_1.index t (1 : Fin 3) * 8 + 1 * (y 1).val = (y 1).val
    rw [e1]; omega
  · show win0_1.index t (2 : Fin 3) * 512 + 1 * (y 2).val = (y 2).val
    rw [e2]; omega

theorem flushed2 (c : Dev nD) (t : Fin cfg0.N) (hf : (cfg0.win 2).flush t = true) :
    (dat0 V c).flushed 2 t = ((cfg0.win 2).blk t).view.read (Elt Ideal) (partArr (fun r h => colN (X0 V c) r h * colN (X0 V c) r h)) := by
  have hK : t.val % 4 = 3 := (flush0_2 t).mp hf
  show (cfg0.win 2).cut (grid0.coords t) ((dat0 V c).after 2 t) = _
  rw [after0_2]
  funext y
  rw [View.read_apply]
  obtain ⟨-, -, -, -, -, e0, e1, e2⟩ := idx_facts0 t
  refine flushed_aux (fun r h => colN (X0 V c) r h * colN (X0 V c) r h) t.val hK _ (fun s h => (outsAt_apply V c t.val t.isLt s h).2) y _ ?_ ?_ ?_
  · show win0_2.index t (0 : Fin 3) * 1 + 1 * (y 0).val = t.val / 4
    have : (y 0).val < 1 := (y 0).isLt
    rw [e0]; omega
  · show win0_2.index t (1 : Fin 3) * 8 + 1 * (y 1).val = (y 1).val
    rw [e1]; omega
  · show win0_2.index t (2 : Fin 3) * 512 + 1 * (y 2).val = (y 2).val
    rw [e2]; omega

/-- Every entry (j, s, h) of a result array is in the block the last point of half j writes back. -/
theorem cover1 (i : S2x8x512.Idx) : ∃ t : Fin cfg0.N, (cfg0.win 1).flush t = true ∧ i ∈ ((cfg0.win 1).blk t).view.set := by
  have hi0 : (i 0).val < 2 := (i 0).isLt
  have hi1 : (i 1).val < 8 := (i 1).isLt
  have hi2 : (i 2).val < 512 := (i 2).isLt
  have hN : cfg0.N = 8 := N_0
  have hlt : (i 0).val * 4 + 3 < cfg0.N := by omega
  refine ⟨⟨(i 0).val * 4 + 3, hlt⟩, (flush0_1 _).mpr (by show ((i 0).val * 4 + 3) % 4 = 3; omega), ?_⟩
  show i ∈ ((View.whole main_v3_0).slice (win0_1.rect ⟨(i 0).val * 4 + 3, hlt⟩)).set
  rw [View.set_slice_whole, Rect.mem_set_unit]
  obtain ⟨-, -, e0, e1, e2, -⟩ := idx_facts0 ⟨(i 0).val * 4 + 3, hlt⟩
  have e0' : win0_1.index ⟨(i 0).val * 4 + 3, hlt⟩ (0 : Fin 3) = (i 0).val := by rw [e0]; show ((i 0).val * 4 + 3) / 4 = (i 0).val; omega
  intro a
  match a with
  | ⟨0, _⟩ => show win0_1.index _ (0 : Fin 3) * 1 ≤ (i 0).val ∧ (i 0).val < win0_1.index _ (0 : Fin 3) * 1 + 1; rw [e0']; omega
  | ⟨1, _⟩ => show win0_1.index _ (1 : Fin 3) * 8 ≤ (i 1).val ∧ (i 1).val < win0_1.index _ (1 : Fin 3) * 8 + 8; rw [e1]; omega
  | ⟨2, _⟩ => show win0_1.index _ (2 : Fin 3) * 512 ≤ (i 2).val ∧ (i 2).val < win0_1.index _ (2 : Fin 3) * 512 + 512; rw [e2]; omega

theorem cover2 (i : S2x8x512.Idx) : ∃ t : Fin cfg0.N, (cfg0.win 2).flush t = true ∧ i ∈ ((cfg0.win 2).blk t).view.set := by
  have hi0 : (i 0).val < 2 := (i 0).isLt
  have hi1 : (i 1).val < 8 := (i 1).isLt
  have hi2 : (i 2).val < 512 := (i 2).isLt
  have hN : cfg0.N = 8 := N_0
  have hlt : (i 0).val * 4 + 3 < cfg0.N := by omega
  refine ⟨⟨(i 0).val * 4 + 3, hlt⟩, (flush0_2 _).mpr (by show ((i 0).val * 4 + 3) % 4 = 3; omega), ?_⟩
  show i ∈ ((View.whole main_v3_1).slice (win0_2.rect ⟨(i 0).val * 4 + 3, hlt⟩)).set
  rw [View.set_slice_whole, Rect.mem_set_unit]
  obtain ⟨-, -, -, -, -, e0, e1, e2⟩ := idx_facts0 ⟨(i 0).val * 4 + 3, hlt⟩
  have e0' : win0_2.index ⟨(i 0).val * 4 + 3, hlt⟩ (0 : Fin 3) = (i 0).val := by rw [e0]; show ((i 0).val * 4 + 3) / 4 = (i 0).val; omega
  intro a
  match a with
  | ⟨0, _⟩ => show win0_2.index _ (0 : Fin 3) * 1 ≤ (i 0).val ∧ (i 0).val < win0_2.index _ (0 : Fin 3) * 1 + 1; rw [e0']; omega
  | ⟨1, _⟩ => show win0_2.index _ (1 : Fin 3) * 8 ≤ (i 1).val ∧ (i 1).val < win0_2.index _ (1 : Fin 3) * 8 + 8; rw [e1]; omega
  | ⟨2, _⟩ => show win0_2.index _ (2 : Fin 3) * 512 ≤ (i 2).val ∧ (i 2).val < win0_2.index _ (2 : Fin 3) * 512 + 512; rw [e2]; omega

/-- The sums' array after the region. -/
theorem final1 (c : Dev nD) : (dat0 V c).arrAt 1 cfg0.N = partArr (colN (X0 V c)) :=
  (dat0 V c).arrAt_eq_of_cover 1 (partArr (colN (X0 V c))) (flushed1 V c) cover1

/-- The squares' array after the region. -/
theorem final2 (c : Dev nD) : (dat0 V c).arrAt 2 cfg0.N = partArr (fun r h => colN (X0 V c) r h * colN (X0 V c) r h) :=
  (dat0 V c).arrAt_eq_of_cover 2 (partArr (fun r h => colN (X0 V c) r h * colN (X0 V c) r h)) (flushed2 V c) cover2

/-- The input array is not written. -/
theorem final0 (c : Dev nD) : (dat0 V c).arrAt 0 cfg0.N = V c main_v0 :=
  (dat0 V c).arrAt_in 0 rfl _

end Cert.KernelIdeal.Stats

end
-- ==== Proof.LibSumRange.lean ====
import Mathlib.Algebra.BigOperators.Fin
import Mathlib.Algebra.BigOperators.Intervals
import Mathlib.Tactic

/-!
# Sums over an initial segment of the naturals, split by quotient and remainder

In any commutative monoid, a sum over `r < a * b` is the double sum over the quotient `i < a` and the remainder
`j < b` of `r = i * b + j` (`sum_range_mul`); iterated three times, a sum over `r < J * K * A * S` is the fourfold sum
over the mixed-radix digits of `r` (`sum_range_mul4`); and the outermost of three range sums may be moved innermost
(`sum_residue_inner`). Together they re-group a sum over the rows of an array by block, group within the block and
residue within the group, whatever the three extents.
-/

namespace Cert.BN.Regroup

open Finset

variable {M : Type*} [AddCommMonoid M] (f : ℕ → M)

/-- A sum over `r < a * b`, split by quotient and remainder on division by `b`. -/
theorem sum_range_mul (a b : ℕ) :
    ∑ i ∈ range a, ∑ j ∈ range b, f (i * b + j) = ∑ r ∈ range (a * b), f r := by
  induction a with
  | zero => simp
  | succ a ih =>
    rw [Finset.sum_range_succ, ih, Nat.succ_mul, Finset.sum_range_add]

/-- Four nested levels: `r = ((j * K + k) * A + a) * S + s`. -/
theorem sum_range_mul4 (J K A S : ℕ) :
    ∑ j ∈ range J, ∑ k ∈ range K, ∑ a ∈ range A, ∑ s ∈ range S,
        f (((j * K + k) * A + a) * S + s)
      = ∑ r ∈ range (J * K * A * S), f r := by
  have h1 := sum_range_mul
    (fun n => ∑ a ∈ range A, ∑ s ∈ range S, f ((n * A + a) * S + s)) J K
  have h2 := sum_range_mul (fun m => ∑ s ∈ range S, f (m * S + s)) (J * K) A
  have h3 := sum_range_mul f (J * K * A) S
  exact h1.trans (h2.trans h3)

/-- The residue sum moved innermost: the order `s, k, a` becomes `k, a, s`. -/
theorem sum_residue_inner (S K A : ℕ) (F : ℕ → ℕ → ℕ → M) :
    ∑ s ∈ range S, ∑ k ∈ range K, ∑ a ∈ range A, F s k a
      = ∑ k ∈ range K, ∑ a ∈ range A, ∑ s ∈ range S, F s k a := by
  rw [Finset.sum_comm]
  refine Finset.sum_congr rfl fun k _ => ?_
  rw [Finset.sum_comm]

end Cert.BN.Regroup
-- ==== Proof.Regroup.lean ====
import proofs.«100808_g2000204283482131_pallaspilot1_46_7_alg».proof.Proof.LibSumRange

/-!
# Regrouping the 32768 row indices

The two groupings of the rows that the two programs use — by half, block within the half, group of eight rows within
the block, and residue modulo eight, with blocks of 1024 or of 4096 rows — each run through every row exactly once, so
a sum over either grouping is the sum over all rows.
-/

namespace Cert.BN.Regroup

open Finset

variable {M : Type*} [AddCommMonoid M] (f : ℕ → M)

/-- rows grouped as: 2 halves, 8 residues, 16 blocks of 1024 rows per half, 128 groups of 8 rows
per block -/
theorem regroup2x8 :
    ∑ j ∈ range 2, ∑ s ∈ range 8, ∑ k ∈ range 16, ∑ a ∈ range 128,
        f ((16 * j + k) * 1024 + 8 * a + s)
      = ∑ r ∈ range 32768, f r := by
  calc ∑ j ∈ range 2, ∑ s ∈ range 8, ∑ k ∈ range 16, ∑ a ∈ range 128,
          f ((16 * j + k) * 1024 + 8 * a + s)
      = ∑ j ∈ range 2, ∑ k ∈ range 16, ∑ a ∈ range 128, ∑ s ∈ range 8,
          f (((j * 16 + k) * 128 + a) * 8 + s) := by
        refine Finset.sum_congr rfl fun j _ => ?_
        rw [sum_residue_inner]
        refine Finset.sum_congr rfl fun k _ => ?_
        refine Finset.sum_congr rfl fun a _ => ?_
        refine Finset.sum_congr rfl fun s _ => ?_
        congr 1
        ring
    _ = ∑ r ∈ range (2 * 16 * 128 * 8), f r := sum_range_mul4 f 2 16 128 8
    _ = ∑ r ∈ range 32768, f r := by norm_num

/-- rows grouped as: 16 partial rows q (q / 8 the half, q % 8 the residue), 4 blocks of 4096 rows
per half, 512 groups of 8 rows per block -/
theorem regroup16 :
    ∑ q ∈ range 16, ∑ k ∈ range 4, ∑ a ∈ range 512,
        f ((4 * (q / 8) + k) * 4096 + 8 * a + q % 8)
      = ∑ r ∈ range 32768, f r := by
  have h : ∑ j ∈ range 2, ∑ s ∈ range 8, ∑ k ∈ range 4, ∑ a ∈ range 512,
        f ((4 * ((j * 8 + s) / 8) + k) * 4096 + 8 * a + (j * 8 + s) % 8)
      = ∑ q ∈ range (2 * 8), ∑ k ∈ range 4, ∑ a ∈ range 512,
        f ((4 * (q / 8) + k) * 4096 + 8 * a + q % 8) :=
    sum_range_mul
      (fun q => ∑ k ∈ range 4, ∑ a ∈ range 512, f ((4 * (q / 8) + k) * 4096 + 8 * a + q % 8)) 2 8
  have h16 : (2 * 8 : ℕ) = 16 := by norm_num
  rw [h16] at h
  calc ∑ q ∈ range 16, ∑ k ∈ range 4, ∑ a ∈ range 512,
          f ((4 * (q / 8) + k) * 4096 + 8 * a + q % 8)
      = ∑ j ∈ range 2, ∑ s ∈ range 8, ∑ k ∈ range 4, ∑ a ∈ range 512,
          f ((4 * ((j * 8 + s) / 8) + k) * 4096 + 8 * a + (j * 8 + s) % 8) := h.symm
    _ = ∑ j ∈ range 2, ∑ k ∈ range 4, ∑ a ∈ range 512, ∑ s ∈ range 8,
          f (((j * 4 + k) * 512 + a) * 8 + s) := by
        refine Finset.sum_congr rfl fun j _ => ?_
        rw [sum_residue_inner]
        refine Finset.sum_congr rfl fun k _ => ?_
        refine Finset.sum_congr rfl fun a _ => ?_
        refine Finset.sum_congr rfl fun s hs => ?_
        have hs' : s < 8 := Finset.mem_range.mp hs
        have e1 : (j * 8 + s) / 8 = j := by omega
        have e2 : (j * 8 + s) % 8 = s := by omega
        rw [e1, e2]
        congr 1
        ring
    _ = ∑ r ∈ range (2 * 4 * 512 * 8), f r := sum_range_mul4 f 2 4 512 8
    _ = ∑ r ∈ range 32768, f r := by norm_num

/-- the running form used by an induction over grid points: the first n+1 blocks of a half -/
theorem sum_range_succ_blocks (g : ℕ → M) (n : ℕ) :
    ∑ k ∈ range (n + 1 + 1), g k = ∑ k ∈ range (n + 1), g k + g (n + 1) :=
  Finset.sum_range_succ g (n + 1)

end Cert.BN.Regroup
-- ==== Proof.Join.lean ====
import proofs.«100808_g2000204283482131_pallaspilot1_46_7_alg».proof.Proof.Regroup
import Mathlib.Algebra.BigOperators.Fin

/-!
# The row regroupings stated over finite index types

The two regroupings of the 32768 row indices, with the outer indices ranging over `Fin n`
instead of `range n`, and with the index written as block offset plus (group, residue) offset.
-/

namespace Cert.BN.Join

open Finset

variable {M : Type*} [AddCommMonoid M]

/-- the 16 partial rows q (half q / 8, residue q % 8), 4 blocks per half, 512 groups of 8 rows
per block -/
theorem joinK (f : ℕ → M) :
    ∑ q : Fin 16, ∑ k ∈ range 4, ∑ a ∈ range 512,
        f ((q.val / 8 * 4 + k) * 4096 + (8 * a + q.val % 8))
      = ∑ r ∈ range 32768, f r := by
  calc ∑ q : Fin 16, ∑ k ∈ range 4, ∑ a ∈ range 512,
          f ((q.val / 8 * 4 + k) * 4096 + (8 * a + q.val % 8))
      = ∑ q ∈ range 16, ∑ k ∈ range 4, ∑ a ∈ range 512,
          f ((q / 8 * 4 + k) * 4096 + (8 * a + q % 8)) :=
        Fin.sum_univ_eq_sum_range
          (fun q : ℕ => ∑ k ∈ range 4, ∑ a ∈ range 512,
            f ((q / 8 * 4 + k) * 4096 + (8 * a + q % 8))) 16
    _ = ∑ q ∈ range 16, ∑ k ∈ range 4, ∑ a ∈ range 512,
          f ((4 * (q / 8) + k) * 4096 + 8 * a + q % 8) := by
        refine Finset.sum_congr rfl fun q _ => ?_
        refine Finset.sum_congr rfl fun k _ => ?_
        refine Finset.sum_congr rfl fun a _ => ?_
        congr 1
        ring
    _ = ∑ r ∈ range 32768, f r := Regroup.regroup16 f

/-- 2 halves, 8 residues, 16 blocks per half, 128 groups of 8 rows per block -/
theorem joinR (f : ℕ → M) :
    ∑ j : Fin 2, ∑ s : Fin 8, ∑ k ∈ range 16, ∑ a ∈ range 128,
        f ((j.val * 16 + k) * 1024 + (8 * a + s.val))
      = ∑ r ∈ range 32768, f r := by
  calc ∑ j : Fin 2, ∑ s : Fin 8, ∑ k ∈ range 16, ∑ a ∈ range 128,
          f ((j.val * 16 + k) * 1024 + (8 * a + s.val))
      = ∑ j ∈ range 2, ∑ s : Fin 8, ∑ k ∈ range 16, ∑ a ∈ range 128,
          f ((j * 16 + k) * 1024 + (8 * a + s.val)) :=
        Fin.sum_univ_eq_sum_range
          (fun j : ℕ => ∑ s : Fin 8, ∑ k ∈ range 16, ∑ a ∈ range 128,
            f ((j * 16 + k) * 1024 + (8 * a + s.val))) 2
    _ = ∑ j ∈ range 2, ∑ s ∈ range 8, ∑ k ∈ range 16, ∑ a ∈ range 128,
          f ((16 * j + k) * 1024 + 8 * a + s) := by
        refine Finset.sum_congr rfl fun j _ => ?_
        have e : ∑ s : Fin 8, ∑ k ∈ range 16, ∑ a ∈ range 128,
              f ((j * 16 + k) * 1024 + (8 * a + s.val))
            = ∑ s ∈ range 8, ∑ k ∈ range 16, ∑ a ∈ range 128,
              f ((j * 16 + k) * 1024 + (8 * a + s)) :=
          Fin.sum_univ_eq_sum_range
            (fun s : ℕ => ∑ k ∈ range 16, ∑ a ∈ range 128,
              f ((j * 16 + k) * 1024 + (8 * a + s))) 8
        rw [e]
        refine Finset.sum_congr rfl fun s _ => ?_
        refine Finset.sum_congr rfl fun k _ => ?_
        refine Finset.sum_congr rfl fun a _ => ?_
        congr 1
        ring
    _ = ∑ r ∈ range 32768, f r := Regroup.regroup2x8 f

end Cert.BN.Join
-- ==== Proof.KApply.lean ====
/-
  What the second kernel leaves in its result array, at exact arithmetic. Each of its 8 grid points reads one block of
  4096 rows of x and, whole, the two [16, 512] arrays of partial sums and the two [1, 512] rows γ and β; it adds up the
  16 partial rows of each column (the column's total t and total of squares q), forms the column's scale and shift from
  them, and stores x · scale + shift over the block. The blocks tile the [32768, 512] result.
-/
import proofs.«100808_g2000204283482131_pallaspilot1_46_7_alg».proof.Proof.Gen.KernelIdeal.Frame
import proofs.«100808_g2000204283482131_pallaspilot1_46_7_alg».proof.Proof.Spec
import Idealize.ShloMosaic.Lib.Pipeline.Value
import Idealize.ShloMosaic.PureOps.Ideal.Laws
import Idealize.ShloMosaic.Lib.ValueIdx

noncomputable section

open Idealize.ShloMosaic Idealize.ShloMosaic.TcCoe Idealize.SL.Sem
open Idealize.ShloMosaic.Pipeline (Dat)

namespace Cert.KernelIdeal.Apply

open Cert.KernelIdeal Cert.KernelIdeal.Gen Idealize.ShloMosaic.ValueIdx Cert.BN Finset

theorem hz2 : (![0, 0] : Fin 2 → Nat) = fun _ => 0 := funext fun a => by fin_cases a <;> rfl

/-! ## The payload at an index -/

/-- The 16 partial rows of a column, added up (the body's lane sum over axis 0, viewed as a [1, 512] row). -/
theorem redrow (P : FVec Ideal S16x512 .f32) (h : Fin 512) :
    shapeCast S1x512 (multiReduction .add [0] S512 P 0x00000000#32 reduces_S16x512_S512 (.inl rfl) rfl) shapeCasts_S512_S1x512
      (ix2 (0 : Fin 1) h) = (∑ q : Fin 16, (P (ix2 q h) : EReal)) := by
  refine (shapeCast_apply _ _ (ix2 (0 : Fin 1) h) (ix1 h) ?_).trans ?_
  · rw [Shape.rowMajor_val_one, Shape.rowMajor_val_two]
    show h.val = 0 * 512 + h.val
    omega
  · refine (Ideal.multiReduction_add_single P 0x00000000#32 reduces_S16x512_S512 (.inl rfl) rfl (ix1 h)).trans ?_
    exact Finset.sum_congr rfl fun q _ => congrArg P (funext fun d => Fin.ext (by match d with | ⟨0, _⟩ => rfl | ⟨1, _⟩ => rfl))

/-- A [1, 512] row broadcast over the block's rows reads the row's entry of the column. -/
theorem bcast (v : FVec Ideal S1x512 .f32) (p : Fin 4096) (h : Fin 512) :
    broadcastTo S4096x512 v broadcasts_S1x512_S4096x512 (ix2 p h) = v (ix2 (0 : Fin 1) h) := by
  refine broadcastTo_apply v _ (ix2 p h) (ix2 (0 : Fin 1) h) fun a => ?_
  match a with
  | ⟨0, _⟩ => rfl
  | ⟨1, _⟩ => rfl

/-- The stored value at (p, h): the block's entry times the column's scale plus the column's shift. -/
theorem pay_apply (P Q : Vec Ideal S16x512 .f32) (g b : Vec Ideal S1x512 .f32) (x : Vec Ideal S4096x512 .f32)
    (p : Fin 4096) (h : Fin 512) :
    k1_pay1 P Q g b x (ix2 p h)
      = x (ix2 p h) * scaleOf (∑ q : Fin 16, P (ix2 q h)) (∑ q : Fin 16, Q (ix2 q h)) (g (ix2 (0 : Fin 1) h))
        + shiftOf (∑ q : Fin 16, P (ix2 q h)) (∑ q : Fin 16, Q (ix2 q h)) (g (ix2 (0 : Fin 1) h)) (b (ix2 (0 : Fin 1) h)) := by
  unfold shiftOf scaleOf
  simp only [k1_pay1, addf_apply, mulf_apply, subf_apply, maximumf_apply, broadcast_apply, bcast, shapeCast_self, rsqrt,
    Ideal.rsqrt_def, Ideal.ofBits_def, Ideal.ofBits_zero_f32]
  rw [← redrow P h, ← redrow Q h]

/-! ## The region at any entry contents -/

variable (V : (c : Dev nD) → (b : Ref sig .tc) → Buf (Elt Ideal) ((c : Thread nD τ).loc b))

/-- The result array as one function of the arrays the region reads. -/
def applyArr (X : (⟨2, ![32768, 512]⟩ : Shape).Idx → EReal) (P Q : (⟨2, ![16, 512]⟩ : Shape).Idx → EReal)
    (g b : (⟨2, ![1, 512]⟩ : Shape).Idx → EReal) : (⟨2, ![32768, 512]⟩ : Shape).Idx → EReal :=
  fun i => X i * Cert.BN.scaleOf (∑ q : Fin 16, P (ix2 q ⟨(i 1).val, idx2_lt1 i⟩)) (∑ q : Fin 16, Q (ix2 q ⟨(i 1).val, idx2_lt1 i⟩)) (g (ix2 (0 : Fin 1) ⟨(i 1).val, idx2_lt1 i⟩))
            + Cert.BN.shiftOf (∑ q : Fin 16, P (ix2 q ⟨(i 1).val, idx2_lt1 i⟩)) (∑ q : Fin 16, Q (ix2 q ⟨(i 1).val, idx2_lt1 i⟩)) (g (ix2 (0 : Fin 1) ⟨(i 1).val, idx2_lt1 i⟩)) (b (ix2 (0 : Fin 1) ⟨(i 1).val, idx2_lt1 i⟩))

/-- The printed index maps over the grid: the blocks of x and of the result are the point's number; the other four
    windows hold their whole arrays. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- The four whole-array windows' blocks are their arrays. -/
theorem iblk_1 (c : Dev nD) (t : Fin cfg1.N) : (iblk1 V c 1 t : Vec Ideal S16x512 .f32) = V c main_v4 := by
  funext y
  unfold iblk1
  rw [View.read_apply]
  show V c main_v4 _ = V c main_v4 _
  refine congrArg (V c main_v4) (funext fun a => Fin.ext ?_)
  obtain ⟨-, -, e0, e1, -⟩ := idx_facts1 t
  match a with
  | ⟨0, _⟩ => show win1_1.index t (0 : Fin 2) * 16 + 1 * (y 0).val = (y 0).val; rw [e0]; omega
  | ⟨1, _⟩ => show win1_1.index t (1 : Fin 2) * 512 + 1 * (y 1).val = (y 1).val; rw [e1]; omega

theorem iblk_2 (c : Dev nD) (t : Fin cfg1.N) : (iblk1 V c 2 t : Vec Ideal S16x512 .f32) = V c main_v5 := by
  funext y
  unfold iblk1
  rw [View.read_apply]
  show V c main_v5 _ = V c main_v5 _
  refine congrArg (V c main_v5) (funext fun a => Fin.ext ?_)
  obtain ⟨-, -, -, -, e0, e1, -⟩ := idx_facts1 t
  match a with
  | ⟨0, _⟩ => show win1_2.index t (0 : Fin 2) * 16 + 1 * (y 0).val = (y 0).val; rw [e0]; omega
  | ⟨1, _⟩ => show win1_2.index t (1 : Fin 2) * 512 + 1 * (y 1).val = (y 1).val; rw [e1]; omega

theorem iblk_3 (c : Dev nD) (t : Fin cfg1.N) : (iblk1 V c 3 t : Vec Ideal S1x512 .f32) = V c main_v1 := by
  funext y
  unfold iblk1
  rw [View.read_apply]
  show V c main_v1 _ = V c main_v1 _
  refine congrArg (V c main_v1) (funext fun a => Fin.ext ?_)
  obtain ⟨-, -, -, -, -, -, e0, e1, -⟩ := idx_facts1 t
  match a with
  | ⟨0, _⟩ => show win1_3.index t (0 : Fin 2) * 1 + 1 * (y 0).val = (y 0).val; rw [e0]; omega
  | ⟨1, _⟩ => show win1_3.index t (1 : Fin 2) * 512 + 1 * (y 1).val = (y 1).val; rw [e1]; omega

theorem iblk_4 (c : Dev nD) (t : Fin cfg1.N) : (iblk1 V c 4 t : Vec Ideal S1x512 .f32) = V c main_v2 := by
  funext y
  unfold iblk1
  rw [View.read_apply]
  show V c main_v2 _ = V c main_v2 _
  refine congrArg (V c main_v2) (funext fun a => Fin.ext ?_)
  obtain ⟨-, -, -, -, -, -, -, -, e0, e1, -⟩ := idx_facts1 t
  match a with
  | ⟨0, _⟩ => show win1_4.index t (0 : Fin 2) * 1 + 1 * (y 0).val = (y 0).val; rw [e0]; omega
  | ⟨1, _⟩ => show win1_4.index t (1 : Fin 2) * 512 + 1 * (y 1).val = (y 1).val; rw [e1]; omega

/-- The block of x at point `t` reads row p at row 4096·t + p. -/
theorem iblk_0 (c : Dev nD) (t : Fin cfg1.N) (p : Fin 4096) (h : Fin 512) :
    (iblk1 V c 0 t : Vec Ideal S4096x512 .f32) (ix2 p h)
      = V c main_v0 (ix2 ⟨t.val * 4096 + p.val, by have := lt_of_lt_of_eq t.isLt (show cfg1.N = 8 from N_1); have := p.isLt; omega⟩ h) := by
  unfold iblk1
  rw [View.read_apply]
  show V c main_v0 _ = V c main_v0 _
  refine congrArg (V c main_v0) (funext fun a => Fin.ext ?_)
  obtain ⟨e0, e1, -⟩ := idx_facts1 t
  match a with
  | ⟨0, _⟩ => show win1_0.index t (0 : Fin 2) * 4096 + 1 * p.val = t.val * 4096 + p.val; rw [e0]; omega
  | ⟨1, _⟩ => show win1_0.index t (1 : Fin 2) * 512 + 1 * h.val = h.val; rw [e1]; omega

/-- What point `t` writes back is block `t` of `applyArr` of the arrays the region reads. -/
theorem flushed5 (c : Dev nD) (t : Fin cfg1.N) (hf : (cfg1.win 5).flush t = true) :
    (dat1 V c).flushed 5 t
      = ((cfg1.win 5).blk t).view.read (Elt Ideal) (applyArr (V c main_v0) (V c main_v4) (V c main_v5) (V c main_v1) (V c main_v2)) := by
  show (cfg1.win 5).cut (grid1.coords t) ((dat1 V c).after 5 t) = _
  rw [after1_5]
  unfold out1_5
  rw [View.canon_unit_zero hz2]
  simp only [View.ld_unit_zero (S := S16x512) hz2, View.ld_unit_zero (S := S1x512) hz2, View.ld_unit_zero (S := S4096x512) hz2]
  rw [iblk_1, iblk_2, iblk_3, iblk_4]
  funext y
  obtain ⟨p, h, rfl⟩ : ∃ (p : Fin 4096) (h : Fin 512), y = ix2 p h := ⟨y 0, y 1, eq_ix2 y⟩
  rw [View.read_apply]
  show k1_pay1 (V c main_v4) (V c main_v5) (V c main_v1) (V c main_v2) (iblk1 V c 0 t) (ix2 p h)
    = applyArr (V c main_v0) (V c main_v4) (V c main_v5) (V c main_v1) (V c main_v2) (((cfg1.win 5).blk t).view.emb (ix2 p h))
  rw [pay_apply, iblk_0]
  have hN : t.val < 8 := lt_of_lt_of_eq t.isLt (show cfg1.N = 8 from N_1)
  have hp := p.isLt
  obtain ⟨-, -, -, -, -, -, -, -, -, -, e0, e1⟩ := idx_facts1 t
  have hemb : ((cfg1.win 5).blk t).view.emb (ix2 p h) = ix2 ⟨t.val * 4096 + p.val, by omega⟩ h := by
    funext a
    apply Fin.ext
    match a with
    | ⟨0, _⟩ => show win1_5.index t (0 : Fin 2) * 4096 + 1 * p.val = t.val * 4096 + p.val; rw [e0]; omega
    | ⟨1, _⟩ => show win1_5.index t (1 : Fin 2) * 512 + 1 * h.val = h.val; rw [e1]; omega
  rw [hemb]
  rfl

/-- Every row r is in the block point r / 4096 writes back. -/
theorem cover5 (i : S32768x512.Idx) : ∃ t : Fin cfg1.N, (cfg1.win 5).flush t = true ∧ i ∈ ((cfg1.win 5).blk t).view.set := by
  have hi0 : (i 0).val < 32768 := (i 0).isLt
  have hi1 : (i 1).val < 512 := (i 1).isLt
  have hN : cfg1.N = 8 := N_1
  have hlt : (i 0).val / 4096 < cfg1.N := by omega
  refine ⟨⟨(i 0).val / 4096, hlt⟩, flush1_5 _, ?_⟩
  show i ∈ ((View.whole main_v6).slice (win1_5.rect ⟨(i 0).val / 4096, hlt⟩)).set
  rw [View.set_slice_whole, Rect.mem_set_unit]
  obtain ⟨-, -, -, -, -, -, -, -, -, -, e0, e1⟩ := idx_facts1 ⟨(i 0).val / 4096, hlt⟩
  have e0' : win1_5.index ⟨(i 0).val / 4096, hlt⟩ (0 : Fin 2) = (i 0).val / 4096 := e0
  intro a
  match a with
  | ⟨0, _⟩ => show win1_5.index _ (0 : Fin 2) * 4096 ≤ (i 0).val ∧ (i 0).val < win1_5.index _ (0 : Fin 2) * 4096 + 4096; rw [e0']; omega
  | ⟨1, _⟩ => show win1_5.index _ (1 : Fin 2) * 512 ≤ (i 1).val ∧ (i 1).val < win1_5.index _ (1 : Fin 2) * 512 + 512; rw [e1]; omega

/-- The result array after the region. -/
theorem final5 (c : Dev nD) :
    (dat1 V c).arrAt 5 cfg1.N = applyArr (V c main_v0) (V c main_v4) (V c main_v5) (V c main_v1) (V c main_v2) :=
  (dat1 V c).arrAt_eq_of_cover 5 _ (flushed5 V c) cover5

end Cert.KernelIdeal.Apply

end
-- ==== Proof.KValue.lean ====
/-
  What the kernel program returns, at exact arithmetic. Between and around its two kernels the program only views
  arrays under other shapes, and a view keeps row-major positions. The argument x is viewed [32768, 512] and γ, β are
  viewed [1, 512] (so (0, h) reads (h)). The first kernel leaves x as it was and two [2, 8, 512] arrays of partial
  sums: entry (j, s, h) is the sum over the 4 blocks k of half j and the 512 groups a of x((4j + k)·4096 + 8a + s, h),
  and the same for the squares. These are viewed [16, 512]: row q reads (q / 8, q % 8). The second kernel adds the
  sixteen rows of each at column h — by regrouping, the sum over all 32768 rows of x(r, h), and of its square: the
  column's total t and total of squares q — and returns x(r, h) · scale + shift with the scale and shift of t, q, γ(h),
  β(h). That is the normalised array entry by entry; the last operation views it [64, 512, 512].
-/
import proofs.«100808_g2000204283482131_pallaspilot1_46_7_alg».proof.Proof.Gen.KernelIdeal.Frame
import proofs.«100808_g2000204283482131_pallaspilot1_46_7_alg».proof.Proof.KStats
import proofs.«100808_g2000204283482131_pallaspilot1_46_7_alg».proof.Proof.Spec
import proofs.«100808_g2000204283482131_pallaspilot1_46_7_alg».proof.Proof.Join
import proofs.«100808_g2000204283482131_pallaspilot1_46_7_alg».proof.Proof.KApply
import Idealize.ShloMosaic.Lib.StableHlo.Run
import Idealize.ShloMosaic.Lib.Pipeline.Value
import Idealize.ShloMosaic.Lib.ValueIdx
import Idealize.ShloMosaic.PureOps.Ideal.Laws

noncomputable section

open Idealize.ShloMosaic Idealize.ShloMosaic.TcCoe Idealize.SL.Sem

namespace Cert.KernelIdeal.Value2

open Cert.KernelIdeal Cert.KernelIdeal.Gen Idealize.ShloMosaic.ValueIdx Cert.BN Finset
open Cert.KernelIdeal.Stats Cert.KernelIdeal.Apply

/-! ## The views between shapes, read at an index -/

/-- A [512] array viewed [1, 512] reads (0, h) at (h). -/
theorem cast_up {α : Type} (v : S512.Idx → α) (h : Fin 512) :
    shapeCast S1x512 v shapeCasts_S512_S1x512 (ix2 (0 : Fin 1) h) = v (ix1 h) :=
  shapeCast_apply v _ _ _ (by
    rw [Shape.rowMajor_val_one, Shape.rowMajor_val_two]
    show h.val = 0 * 512 + h.val
    omega)

/-- A [2, 8, 512] array viewed [16, 512] reads (q, h) at (q / 8, q % 8, h). -/
theorem cast16 {α : Type} (v : S2x8x512.Idx → α) (q : Fin 16) (h : Fin 512) :
    shapeCast S16x512 v shapeCasts_S2x8x512_S16x512 (ix2 q h)
      = v (ix3 (⟨q.val / 8, by have := q.isLt; omega⟩ : Fin 2) (⟨q.val % 8, by omega⟩ : Fin 8) h) :=
  shapeCast_apply v _ _ _ (by
    rw [Shape.rowMajor_val_two, Shape.rowMajor_val_three]
    show (q.val / 8 * 8 + q.val % 8) * 512 + h.val = q.val * 512 + h.val
    omega)

/-- The sixteen partial rows of a column add up to the column's total over all 32768 rows. -/
theorem sum_partArr (f : ℕ → ℕ → EReal) (h : Fin 512) :
    ∑ q : Fin 16, shapeCast S16x512 (partArr f) shapeCasts_S2x8x512_S16x512 (ix2 q h)
      = ∑ r ∈ range 32768, f r h.val := by
  rw [← Cert.BN.Join.joinK (fun r => f r h.val)]
  refine Finset.sum_congr rfl fun q _ => ?_
  rw [cast16]
  rfl

/-- The second kernel's result from the first kernel's partial sums is the normalised array. -/
theorem applyArr_eq (X : S32768x512.Idx → EReal) (g1 b1 : S512.Idx → EReal) :
    applyArr X (shapeCast S16x512 (partArr (colN X)) shapeCasts_S2x8x512_S16x512)
        (shapeCast S16x512 (partArr (fun r h => colN X r h * colN X r h)) shapeCasts_S2x8x512_S16x512)
        (shapeCast S1x512 g1 shapeCasts_S512_S1x512) (shapeCast S1x512 b1 shapeCasts_S512_S1x512)
      = bnArr X (fun h => g1 (ix1 h)) (fun h => b1 (ix1 h)) := by
  funext i
  have hi : i = ix2 (⟨(i 0).val, idx2_lt0 i⟩ : Fin 32768) (⟨(i 1).val, idx2_lt1 i⟩ : Fin 512) := eq_ix2 i
  show X i * scaleOf _ _ _ + shiftOf _ _ _ _ = bnAt X _ _ ⟨(i 0).val, idx2_lt0 i⟩ ⟨(i 1).val, idx2_lt1 i⟩
  unfold bnAt
  rw [sum_partArr, sum_partArr, cast_up, cast_up, ← hi]
  rfl

/-! ## What the host operations leave, from any contents -/

theorem ops0_v0 (W : Valuation τ sig (Elt Ideal)) :
    StableHlo.after (hostOps0 (F := Ideal)) W (Proc.devRef .tc main_v0)
      = shapeCast S32768x512 (W (Proc.devRef .tc main_arg0)) shapeCasts_S64x512x512_S32768x512 := by
  after_results_simp
  rfl

theorem ops0_v1 (W : Valuation τ sig (Elt Ideal)) :
    StableHlo.after (hostOps0 (F := Ideal)) W (Proc.devRef .tc main_v1)
      = shapeCast S1x512 (W (Proc.devRef .tc main_arg1)) shapeCasts_S512_S1x512 := by
  after_results_simp
  rfl

theorem ops0_v2 (W : Valuation τ sig (Elt Ideal)) :
    StableHlo.after (hostOps0 (F := Ideal)) W (Proc.devRef .tc main_v2)
      = shapeCast S1x512 (W (Proc.devRef .tc main_arg2)) shapeCasts_S512_S1x512 := by
  after_results_simp
  rfl

theorem ops1_v4 (W : Valuation τ sig (Elt Ideal)) :
    StableHlo.after (hostOps1 (F := Ideal)) W (Proc.devRef .tc main_v4)
      = shapeCast S16x512 (W (Proc.devRef .tc main_v3_0)) shapeCasts_S2x8x512_S16x512 := by
  after_results_simp
  rfl

theorem ops1_v5 (W : Valuation τ sig (Elt Ideal)) :
    StableHlo.after (hostOps1 (F := Ideal)) W (Proc.devRef .tc main_v5)
      = shapeCast S16x512 (W (Proc.devRef .tc main_v3_1)) shapeCasts_S2x8x512_S16x512 := by
  after_results_simp
  rfl

theorem ops1_v0 (W : Valuation τ sig (Elt Ideal)) :
    StableHlo.after (hostOps1 (F := Ideal)) W (Proc.devRef .tc main_v0) = W (Proc.devRef .tc main_v0) := by
  after_results_simp

theorem ops1_v1 (W : Valuation τ sig (Elt Ideal)) :
    StableHlo.after (hostOps1 (F := Ideal)) W (Proc.devRef .tc main_v1) = W (Proc.devRef .tc main_v1) := by
  after_results_simp

theorem ops1_v2 (W : Valuation τ sig (Elt Ideal)) :
    StableHlo.after (hostOps1 (F := Ideal)) W (Proc.devRef .tc main_v2) = W (Proc.devRef .tc main_v2) := by
  after_results_simp

theorem ops2_v7 (W : Valuation τ sig (Elt Ideal)) :
    StableHlo.after (hostOps2 (F := Ideal)) W (Proc.devRef .tc main_v7)
      = shapeCast S64x512x512 (W (Proc.devRef .tc main_v6)) shapeCasts_S32768x512_S64x512x512 := by
  after_results_simp
  rfl

/-! ## The fold through @main, buffer by buffer -/

variable (m : (ℓ : Loc nD τ sig) → Buf (Elt Ideal) ℓ) (ρ : Dev nD → PrngReg) (c : Dev nD)

/-- The first argument viewed [32768, 512]: what both kernels read. -/
abbrev xIn : S32768x512.Idx → EReal :=
  shapeCast S32768x512 (m ((c : Thread nD τ).loc main_arg0)) shapeCasts_S64x512x512_S32768x512

/-- Entering the first kernel, the input array is the first argument viewed [32768, 512], -/
theorem W1_v0 : W1 m ρ c (Proc.devRef .tc main_v0) = xIn m c := ops0_v0 (W0 m ρ c)

/-- and γ and β are the other two arguments viewed [1, 512]. -/
theorem W1_v1 : W1 m ρ c (Proc.devRef .tc main_v1)
    = shapeCast S1x512 (m ((c : Thread nD τ).loc main_arg1)) shapeCasts_S512_S1x512 := ops0_v1 (W0 m ρ c)

theorem W1_v2 : W1 m ρ c (Proc.devRef .tc main_v2)
    = shapeCast S1x512 (m ((c : Thread nD τ).loc main_arg2)) shapeCasts_S512_S1x512 := ops0_v2 (W0 m ρ c)

/-- The first kernel leaves its input as it was, -/
theorem W2_v0 : W2 m ρ c (Proc.devRef .tc main_v0) = xIn m c :=
  ((W2_arr m ρ c 0).trans (final0 (V1 m ρ) c)).trans (W1_v0 m ρ c)

/-- the partial sums of the rows in its first result, -/
theorem W2_v3_0 : W2 m ρ c (Proc.devRef .tc main_v3_0) = partArr (colN (xIn m c)) := by
  have e : W2 m ρ c (Proc.devRef .tc main_v3_0) = partArr (colN (X0 (V1 m ρ) c)) :=
    (W2_arr m ρ c 1).trans (final1 (V1 m ρ) c)
  have ex : X0 (V1 m ρ) c = xIn m c := W1_v0 m ρ c
  rw [e, ex]

/-- the partial sums of their squares in its second, -/
theorem W2_v3_1 : W2 m ρ c (Proc.devRef .tc main_v3_1)
    = partArr (fun r h => colN (xIn m c) r h * colN (xIn m c) r h) := by
  have e : W2 m ρ c (Proc.devRef .tc main_v3_1)
      = partArr (fun r h => colN (X0 (V1 m ρ) c) r h * colN (X0 (V1 m ρ) c) r h) :=
    (W2_arr m ρ c 2).trans (final2 (V1 m ρ) c)
  have ex : X0 (V1 m ρ) c = xIn m c := W1_v0 m ρ c
  rw [e, ex]

/-- and γ and β untouched. -/
theorem W2_v1 : W2 m ρ c (Proc.devRef .tc main_v1)
    = shapeCast S1x512 (m ((c : Thread nD τ).loc main_arg1)) shapeCasts_S512_S1x512 :=
  (W2_of_ne m ρ c main_v1 (by decide)).trans (W1_v1 m ρ c)

theorem W2_v2 : W2 m ρ c (Proc.devRef .tc main_v2)
    = shapeCast S1x512 (m ((c : Thread nD τ).loc main_arg2)) shapeCasts_S512_S1x512 :=
  (W2_of_ne m ρ c main_v2 (by decide)).trans (W1_v2 m ρ c)

/-- Entering the second kernel: the input, the two partial arrays viewed [16, 512], γ and β. -/
theorem V3_v0 : V3 m ρ c main_v0 = xIn m c := (ops1_v0 (W2 m ρ c)).trans (W2_v0 m ρ c)

theorem V3_v4 : V3 m ρ c main_v4
    = shapeCast S16x512 (partArr (colN (xIn m c))) shapeCasts_S2x8x512_S16x512 := by
  have e : V3 m ρ c main_v4
      = shapeCast S16x512 (W2 m ρ c (Proc.devRef .tc main_v3_0)) shapeCasts_S2x8x512_S16x512 := ops1_v4 (W2 m ρ c)
  rw [e, W2_v3_0]

theorem V3_v5 : V3 m ρ c main_v5
    = shapeCast S16x512 (partArr (fun r h => colN (xIn m c) r h * colN (xIn m c) r h))
        shapeCasts_S2x8x512_S16x512 := by
  have e : V3 m ρ c main_v5
      = shapeCast S16x512 (W2 m ρ c (Proc.devRef .tc main_v3_1)) shapeCasts_S2x8x512_S16x512 := ops1_v5 (W2 m ρ c)
  rw [e, W2_v3_1]

theorem V3_v1 : V3 m ρ c main_v1
    = shapeCast S1x512 (m ((c : Thread nD τ).loc main_arg1)) shapeCasts_S512_S1x512 :=
  (ops1_v1 (W2 m ρ c)).trans (W2_v1 m ρ c)

theorem V3_v2 : V3 m ρ c main_v2
    = shapeCast S1x512 (m ((c : Thread nD τ).loc main_arg2)) shapeCasts_S512_S1x512 :=
  (ops1_v2 (W2 m ρ c)).trans (W2_v2 m ρ c)

/-- The second kernel's result array is the normalised array. -/
theorem W4_v6 : W4 m ρ c (Proc.devRef .tc main_v6)
    = bnArr (xIn m c) (fun h => m ((c : Thread nD τ).loc main_arg1) (ix1 h))
        (fun h => m ((c : Thread nD τ).loc main_arg2) (ix1 h)) := by
  have e : W4 m ρ c (Proc.devRef .tc main_v6)
      = applyArr (V3 m ρ c main_v0) (V3 m ρ c main_v4) (V3 m ρ c main_v5) (V3 m ρ c main_v1) (V3 m ρ c main_v2) :=
    (W4_arr m ρ c 5).trans (final5 (V3 m ρ) c)
  rw [e, V3_v0, V3_v4, V3_v5, V3_v1, V3_v2]
  exact applyArr_eq (xIn m c) _ _

/-- What @main returns: the normalised array viewed [64, 512, 512]. -/
theorem result : W5 m ρ c (Proc.devRef .tc main_v7)
    = Cert.BN.resultArr (m ((c : Thread nD τ).loc main_arg0)) (m ((c : Thread nD τ).loc main_arg1))
        (m ((c : Thread nD τ).loc main_arg2)) := by
  have e : W5 m ρ c (Proc.devRef .tc main_v7)
      = shapeCast S64x512x512 (W4 m ρ c (Proc.devRef .tc main_v6)) shapeCasts_S32768x512_S64x512x512 :=
    ops2_v7 (W4 m ρ c)
  rw [e, W4_v6]
  rfl

end Cert.KernelIdeal.Value2

end
-- ==== Proof.RStatsCases.lean ====
/-
  The first kernel's body, case by case. At a grid point whose inner coordinate is zero the body first stores the zero
  block into each of the two output blocks and then adds the input block's partial sums to what it reads back; at every
  other point it adds them to what the block held before. So after the body each output block holds ONE payload of the
  input block and the block's earlier contents (the zero block in the first case): the single covering store's value,
  its loads reading whole buffers.
-/
import proofs.«100808_g2000204283482131_pallaspilot1_46_7_alg».proof.Proof.Gen.ReferenceIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.ReferenceIdeal.Stats

open Cert.ReferenceIdeal Cert.ReferenceIdeal.Gen

variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl

/-- A point that does not reset: the sums' block holds its earlier contents plus the input block's partial sums. -/
theorem out_B_1 (c : Dev nD) (i : grid0.Coords) (a2 : Memref sig .tc .vmem S1024x512 .f32) (h2 : a2.IsWhole)
    (a3 : Memref sig .tc .vmem S1x8x512 .f32) (h3 : a3.IsWhole) (a4 : Memref sig .tc .vmem S1x8x512 .f32) (h4 : a4.IsWhole)
    (hc : ¬cond0_0 i) (x : Vec F S1024x512 .f32) (xo1 xo2 : Vec F S1x8x512 .f32) :
    out0_B_1 c i a2 h2 a3 h3 a4 h4 hc x xo1 xo2 = k0_pay4 x xo1 := by
  unfold out0_B_1
  rw [View.read_writes_eq_canon _ _ _ (cover0_B_1 c i a2 h2 a3 h3 a4 h4 hc x xo1 xo2)]
  unfold kernelRun0_B
  dsimp only
  rw [View.canon_unit_zero hz3]
  simp only [View.readAt_eq_ld, h2.read_unread, h3.read_unread, View.ld_unit_zero (S := S1024x512) hz2,
    View.ld_unit_zero (S := S1x8x512) hz3]

/-- The same for the block of sums of squares. -/
theorem out_B_2 (c : Dev nD) (i : grid0.Coords) (a2 : Memref sig .tc .vmem S1024x512 .f32) (h2 : a2.IsWhole)
    (a3 : Memref sig .tc .vmem S1x8x512 .f32) (h3 : a3.IsWhole) (a4 : Memref sig .tc .vmem S1x8x512 .f32) (h4 : a4.IsWhole)
    (hc : ¬cond0_0 i) (x : Vec F S1024x512 .f32) (xo1 xo2 : Vec F S1x8x512 .f32) :
    out0_B_2 c i a2 h2 a3 h3 a4 h4 hc x xo1 xo2 = k0_pay5 x xo2 := by
  unfold out0_B_2
  rw [View.read_writes_eq_canon _ _ _ (cover0_B_2 c i a2 h2 a3 h3 a4 h4 hc x xo1 xo2)]
  unfold kernelRun0_B
  dsimp only
  rw [View.canon_unit_zero hz3]
  simp only [View.readAt_eq_ld, h2.read_unread, h4.read_unread, View.ld_unit_zero (S := S1024x512) hz2,
    View.ld_unit_zero (S := S1x8x512) hz3]

/-- A point that resets: the zero block is stored, read back, and the input block's partial sums added to it. -/
theorem out_A_1 (c : Dev nD) (i : grid0.Coords) (a2 : Memref sig .tc .vmem S1024x512 .f32) (h2 : a2.IsWhole)
    (a3 : Memref sig .tc .vmem S1x8x512 .f32) (h3 : a3.IsWhole) (a4 : Memref sig .tc .vmem S1x8x512 .f32) (h4 : a4.IsWhole)
    (hc : cond0_0 i) (x : Vec F S1024x512 .f32) :
    out0_A_1 c i a2 h2 a3 h3 a4 h4 hc x = k0_pay4 x k0_pay1 := by
  unfold out0_A_1
  rw [View.read_writes_eq_canon _ _ _ (cover0_A_1 c i a2 h2 a3 h3 a4 h4 hc x)]
  unfold kernelRun0_A
  dsimp only
  sl_unfold_words
  rw [View.canon_cons_unit_zero (S := S1x8x512) hz3, View.readCov_unit_zero (S := S1x8x512) _ hz3]
  simp only [View.readAt_eq_ld, h2.read_unread, View.ld_unit_zero (S := S1024x512) hz2]

/-- The same for the block of sums of squares. -/
theorem out_A_2 (c : Dev nD) (i : grid0.Coords) (a2 : Memref sig .tc .vmem S1024x512 .f32) (h2 : a2.IsWhole)
    (a3 : Memref sig .tc .vmem S1x8x512 .f32) (h3 : a3.IsWhole) (a4 : Memref sig .tc .vmem S1x8x512 .f32) (h4 : a4.IsWhole)
    (hc : cond0_0 i) (x : Vec F S1024x512 .f32) :
    out0_A_2 c i a2 h2 a3 h3 a4 h4 hc x = k0_pay5 x k0_pay2 := by
  unfold out0_A_2
  rw [View.read_writes_eq_canon _ _ _ (cover0_A_2 c i a2 h2 a3 h3 a4 h4 hc x)]
  unfold kernelRun0_A
  dsimp only
  sl_unfold_words
  rw [View.canon_cons_unit_zero (S := S1x8x512) hz3, View.readCov_unit_zero (S := S1x8x512) _ hz3]
  simp only [View.readAt_eq_ld, h2.read_unread, View.ld_unit_zero (S := S1024x512) hz2]

end Cert.ReferenceIdeal.Stats

end
-- ==== Proof.RStats.lean ====
/-
  What the first kernel leaves in its two result arrays, at exact arithmetic. Its grid is 2 × 16: for each half j the
  16 points (j, 0 … 15) read the 16 consecutive blocks of 1024 rows of that half, and each adds to the half's [8, 512]
  block the block's rows summed eight apart: entry (s, h) gains the sum over a of row 8a + s of the block (128 terms).
  The first point of a half starts from the zero block; the half's block is written back after its last point. So the
  result array's entry (j, s, h) is the sum over the 16 blocks k of half j and the 128 groups a of
  x((16j + k)·1024 + 8a + s, h) — and the second result array the same sum of the squares.
-/
import proofs.«100808_g2000204283482131_pallaspilot1_46_7_alg».proof.Proof.RStatsCases
import proofs.«100808_g2000204283482131_pallaspilot1_46_7_alg».proof.Proof.Spec
import Idealize.ShloMosaic.PureOps.Ideal.Laws
import Idealize.ShloMosaic.Lib.ValueIdx

noncomputable section

open Idealize.ShloMosaic Idealize.ShloMosaic.TcCoe Idealize.SL.Sem
open Idealize.ShloMosaic.Pipeline (Dat)

namespace Cert.ReferenceIdeal.Stats

open Cert.ReferenceIdeal Cert.ReferenceIdeal.Gen Idealize.ShloMosaic.ValueIdx Cert.BN Finset

/-! ## The payloads at an index -/

/-- The reset stores zeros. -/
theorem pay1_apply (j : S1x8x512.Idx) : k0_pay1 (F := Ideal) j = 0 := by
  show (Ideal.ofBits .f32 0x00000000#32 : EReal) = 0
  exact Ideal.ofBits_zero_f32

theorem pay2_apply (j : S1x8x512.Idx) : k0_pay2 (F := Ideal) j = 0 := by
  show (Ideal.ofBits .f32 0x00000000#32 : EReal) = 0
  exact Ideal.ofBits_zero_f32

/-- The block viewed [128, 8, 512] reads (a, s, h) at row 8a + s. -/
theorem pay3_apply (x : Vec Ideal S1024x512 .f32) (a : Fin 128) (s : Fin 8) (h : Fin 512) :
    k0_pay3 x (ix3 a s h) = x (ix2 ⟨8 * a.val + s.val, by have := a.isLt; have := s.isLt; omega⟩ h) := by
  unfold k0_pay3
  refine (shapeCast_apply _ _ (ix3 a s h) (ix2 ⟨8 * a.val + s.val, by have := a.isLt; have := s.isLt; omega⟩ h) ?_).trans ?_
  · rw [Shape.rowMajor_val_two, Shape.rowMajor_val_three]
    show (8 * a.val + s.val) * 512 + h.val = (a.val * 8 + s.val) * 512 + h.val
    omega
  · exact congrFun (shapeCast_self x _) _

/-- The sums' payload at (0, s, h): what the block held there plus the 128 rows ≡ s (mod 8) of the input block. -/
theorem pay4_apply (x : Vec Ideal S1024x512 .f32) (xo : Vec Ideal S1x8x512 .f32) (s : Fin 8) (h : Fin 512) :
    k0_pay4 x xo (ix3 (0 : Fin 1) s h)
      = xo (ix3 (0 : Fin 1) s h) + ∑ a : Fin 128, x (ix2 ⟨8 * a.val + s.val, by have := a.isLt; have := s.isLt; omega⟩ h) := by
  unfold k0_pay4
  refine (shapeCast_apply _ _ (ix3 (0 : Fin 1) s h) (ix2 s h) ?_).trans ?_
  · rw [Shape.rowMajor_val_two, Shape.rowMajor_val_three]
    show s.val * 512 + h.val = (0 * 8 + s.val) * 512 + h.val
    omega
  · show shapeCast S8x512 xo _ (ix2 s h) + multiReduction .add [0] S8x512 (k0_pay3 x) 0x00000000#32 reduces_S128x8x512_S8x512 (.inl rfl) rfl (ix2 s h) = _
    refine congrArg₂ (· + ·) ?_ ?_
    · refine shapeCast_apply _ _ (ix2 s h) (ix3 (0 : Fin 1) s h) ?_
      rw [Shape.rowMajor_val_two, Shape.rowMajor_val_three]
      show (0 * 8 + s.val) * 512 + h.val = s.val * 512 + h.val
      omega
    · refine (Ideal.multiReduction_add_single (k0_pay3 x) 0x00000000#32 reduces_S128x8x512_S8x512 (.inl rfl) rfl (ix2 s h)).trans ?_
      exact Finset.sum_congr rfl fun a _ => pay3_apply x a s h

/-- The squares' payload likewise. -/
theorem pay5_apply (x : Vec Ideal S1024x512 .f32) (xo : Vec Ideal S1x8x512 .f32) (s : Fin 8) (h : Fin 512) :
    k0_pay5 x xo (ix3 (0 : Fin 1) s h)
      = xo (ix3 (0 : Fin 1) s h) + ∑ a : Fin 128, x (ix2 ⟨8 * a.val + s.val, by have := a.isLt; have := s.isLt; omega⟩ h)
          * x (ix2 ⟨8 * a.val + s.val, by have := a.isLt; have := s.isLt; omega⟩ h) := by
  unfold k0_pay5
  refine (shapeCast_apply _ _ (ix3 (0 : Fin 1) s h) (ix2 s h) ?_).trans ?_
  · rw [Shape.rowMajor_val_two, Shape.rowMajor_val_three]
    show s.val * 512 + h.val = (0 * 8 + s.val) * 512 + h.val
    omega
  · show shapeCast S8x512 xo _ (ix2 s h) + multiReduction .add [0] S8x512 (mulf (k0_pay3 x) (k0_pay3 x)) 0x00000000#32 reduces_S128x8x512_S8x512 (.inl rfl) rfl (ix2 s h) = _
    refine congrArg₂ (· + ·) ?_ ?_
    · refine shapeCast_apply _ _ (ix2 s h) (ix3 (0 : Fin 1) s h) ?_
      rw [Shape.rowMajor_val_two, Shape.rowMajor_val_three]
      show (0 * 8 + s.val) * 512 + h.val = s.val * 512 + h.val
      omega
    · refine (Ideal.multiReduction_add_single (mulf (k0_pay3 x) (k0_pay3 x)) 0x00000000#32 reduces_S128x8x512_S8x512 (.inl rfl) rfl (ix2 s h)).trans ?_
      refine Finset.sum_congr rfl fun a _ => ?_
      exact congrArg₂ (· * ·) (pay3_apply x a s h) (pay3_apply x a s h)

/-! ## The region at any entry contents -/

variable (V : (c : Dev nD) → (b : Ref sig .tc) → Buf (Elt Ideal) ((c : Thread nD τ).loc b))

/-- The [32768, 512] array the region reads, as the region finds it. -/
abbrev X0 (c : Dev nD) : (⟨2, ![32768, 512]⟩ : Shape).Idx → EReal := V c main_v0

/-- The printed index maps over the grid: the input's block is the point's number; each output's block is the half. -/
theorem idx_facts0 : ∀ t : Fin cfg0.N, win0_0.index t (0 : Fin 2) = t.val ∧ win0_0.index t (1 : Fin 2) = 0
    ∧ win0_1.index t (0 : Fin 3) = t.val / 16 ∧ win0_1.index t (1 : Fin 3) = 0 ∧ win0_1.index t (2 : Fin 3) = 0
    ∧ win0_2.index t (0 : Fin 3) = t.val / 16 ∧ win0_2.index t (1 : Fin 3) = 0 ∧ win0_2.index t (2 : Fin 3) = 0 :=
  (by decide +kernel : ∀ t : Fin grid0.N, _)

/-- The input block at point `t` reads row p at row 1024·t + p of the array. -/
theorem iblk_apply (c : Dev nD) (t : Fin cfg0.N) (p : Fin 1024) (h : Fin 512) :
    (iblk0 V c 0 t : Vec Ideal S1024x512 .f32) (ix2 p h) = colN (X0 V c) (t.val * 1024 + p.val) h.val := by
  have hN : t.val < 32 := lt_of_lt_of_eq t.isLt (show cfg0.N = 32 from N_0)
  have hp := p.isLt
  unfold colN
  rw [dif_pos ⟨by omega, h.isLt⟩]
  unfold iblk0
  rw [View.read_apply]
  show V c main_v0 _ = V c main_v0 _
  refine congrArg (V c main_v0) (funext fun a => Fin.ext ?_)
  obtain ⟨e0, e1, -⟩ := idx_facts0 t
  match a with
  | ⟨0, _⟩ => show win0_0.index t (0 : Fin 2) * 1024 + 1 * p.val = t.val * 1024 + p.val; rw [e0]; omega
  | ⟨1, _⟩ => show win0_0.index t (1 : Fin 2) * 512 + 1 * h.val = h.val; rw [e1]; omega

/-- A block's rows ≡ s (mod 8), summed: a range sum over the array's rows. -/
theorem blocksum (c : Dev nD) (t : Fin cfg0.N) (s : Fin 8) (h : Fin 512) (g : EReal → EReal) :
    ∑ a : Fin 128, g ((iblk0 V c 0 t : Vec Ideal S1024x512 .f32) (ix2 ⟨8 * a.val + s.val, by have := a.isLt; have := s.isLt; omega⟩ h))
      = ∑ a ∈ range 128, g (colN (X0 V c) (t.val * 1024 + (8 * a + s.val)) h.val) := by
  rw [← Fin.sum_univ_eq_sum_range (fun a => g (colN (X0 V c) (t.val * 1024 + (8 * a + s.val)) h.val)) 128]
  exact Finset.sum_congr rfl fun a _ => congrArg g (iblk_apply V c t _ h)

/-- The running sum after point `n` of a half: its first n % 16 + 1 blocks. -/
def acc (f : ℕ → EReal) (n s : ℕ) : EReal :=
  ∑ k ∈ range (n % 16 + 1), ∑ a ∈ range 128, f ((n / 16 * 16 + k) * 1024 + (8 * a + s))

theorem acc_reset (f : ℕ → EReal) (n s : ℕ) (h0 : n % 16 = 0) :
    acc f n s = ∑ a ∈ range 128, f (n * 1024 + (8 * a + s)) := by
  unfold acc
  rw [h0, Finset.sum_range_one]
  have e : n / 16 * 16 + 0 = n := by omega
  rw [e]

theorem acc_step (f : ℕ → EReal) (n s : ℕ) (h0 : ¬(n + 1) % 16 = 0) :
    acc f (n + 1) s = acc f n s + ∑ a ∈ range 128, f ((n + 1) * 1024 + (8 * a + s)) := by
  unfold acc
  have e1 : (n + 1) % 16 = n % 16 + 1 := by omega
  have e2 : (n + 1) / 16 = n / 16 := by omega
  rw [e1, e2, Finset.sum_range_succ]
  have e3 : n / 16 * 16 + (n % 16 + 1) = n + 1 := by omega
  rw [e3]

/-- After point `n` the two output blocks hold the running sums of the half's blocks so far, of the entries and of
    their squares — by induction on the point. -/
theorem outsAt_apply (c : Dev nD) : ∀ (n : ℕ) (hn : n < cfg0.N) (s : Fin 8) (h : Fin 512),
    (outsAt0 V c n hn).1 (ix3 (0 : Fin 1) s h) = acc (fun r => colN (X0 V c) r h.val) n s.val
    ∧ (outsAt0 V c n hn).2 (ix3 (0 : Fin 1) s h) = acc (fun r => colN (X0 V c) r h.val * colN (X0 V c) r h.val) n s.val
  | 0, hn, s, h => by
    rw [outsAt0_A V c ⟨0, hn⟩ rfl]
    dsimp only
    rw [out_A_1, out_A_2, pay4_apply, pay5_apply, pay1_apply, pay2_apply, zero_add, zero_add,
      acc_reset _ 0 _ rfl, acc_reset _ 0 _ rfl]
    exact ⟨blocksum V c ⟨0, hn⟩ s h id, blocksum V c ⟨0, hn⟩ s h (fun v => v * v)⟩
  | n + 1, hn, s, h => by
    by_cases h0 : (n + 1) % 16 = 0
    · rw [outsAt0_A V c ⟨n + 1, hn⟩ h0]
      dsimp only
      rw [out_A_1, out_A_2, pay4_apply, pay5_apply, pay1_apply, pay2_apply, zero_add, zero_add,
        acc_reset _ (n + 1) _ h0, acc_reset _ (n + 1) _ h0]
      exact ⟨blocksum V c ⟨n + 1, hn⟩ s h id, blocksum V c ⟨n + 1, hn⟩ s h (fun v => v * v)⟩
    · rw [outsAt0_B V c ⟨n + 1, hn⟩ h0]
      dsimp only
      rw [out_B_1, out_B_2, pay4_apply, pay5_apply, acc_step _ n _ h0, acc_step _ n _ h0]
      obtain ⟨ih1, ih2⟩ := outsAt_apply c n (Nat.lt_of_succ_lt hn) s h
      refine ⟨congrArg₂ (· + ·) ?_ (blocksum V c ⟨n + 1, hn⟩ s h id), congrArg₂ (· + ·) ?_ (blocksum V c ⟨n + 1, hn⟩ s h (fun v => v * v))⟩
      · exact ih1
      · exact ih2

/-! ## The result arrays -/

/-- A [2, 8, 512] array of partial sums of `f` (a function of row and column): entry (j, s, h) sums the 16 blocks of
    half j, the rows ≡ s (mod 8) of each. -/
def partArr (f : ℕ → ℕ → EReal) : (⟨3, ![2, 8, 512]⟩ : Shape).Idx → EReal :=
  fun i => ∑ k ∈ range 16, ∑ a ∈ range 128, f (((i 0).val * 16 + k) * 1024 + (8 * a + (i 1).val)) (i 2).val

/-- A block of an output at a point of the last kind, read against `partArr`: stated over a variable block. -/
theorem flushed_aux (f : ℕ → ℕ → EReal) (n : ℕ) (hK : n % 16 = 15) (v : Vec Ideal S1x8x512 .f32)
    (hv : ∀ (s : Fin 8) (h : Fin 512), v (ix3 (0 : Fin 1) s h) = acc (fun r => f r h.val) n s.val)
    (y : S1x8x512.Idx) (i : (⟨3, ![2, 8, 512]⟩ : Shape).Idx)
    (e0 : (i 0).val = n / 16) (e1 : (i 1).val = (y 1).val) (e2 : (i 2).val = (y 2).val) :
    v y = partArr f i := by
  obtain ⟨z, s, h, rfl⟩ : ∃ (z : Fin 1) (s : Fin 8) (h : Fin 512), y = ix3 z s h := ⟨y 0, y 1, y 2, eq_ix3 y⟩
  obtain rfl : z = 0 := Subsingleton.elim _ _
  rw [hv s h]
  unfold partArr acc
  rw [e0, e1, e2, hK]

theorem flushed1 (c : Dev nD) (t : Fin cfg0.N) (hf : (cfg0.win 1).flush t = true) :
    (dat0 V c).flushed 1 t = ((cfg0.win 1).blk t).view.read (Elt Ideal) (partArr (colN (X0 V c))) := by
  have hK : t.val % 16 = 15 := (flush0_1 t).mp hf
  show (cfg0.win 1).cut (grid0.coords t) ((dat0 V c).after 1 t) = _
  rw [after0_1]
  funext y
  rw [View.read_apply]
  obtain ⟨-, -, e0, e1, e2, -⟩ := idx_facts0 t
  refine flushed_aux (colN (X0 V c)) t.val hK _ (fun s h => (outsAt_apply V c t.val t.isLt s h).1) y _ ?_ ?_ ?_
  · show win0_1.index t (0 : Fin 3) * 1 + 1 * (y 0).val = t.val / 16
    have : (y 0).val < 1 := (y 0).isLt
    rw [e0]; omega
  · show win0_1.index t (1 : Fin 3) * 8 + 1 * (y 1).val = (y 1).val
    rw [e1]; omega
  · show win0_1.index t (2 : Fin 3) * 512 + 1 * (y 2).val = (y 2).val
    rw [e2]; omega

theorem flushed2 (c : Dev nD) (t : Fin cfg0.N) (hf : (cfg0.win 2).flush t = true) :
    (dat0 V c).flushed 2 t = ((cfg0.win 2).blk t).view.read (Elt Ideal) (partArr (fun r h => colN (X0 V c) r h * colN (X0 V c) r h)) := by
  have hK : t.val % 16 = 15 := (flush0_2 t).mp hf
  show (cfg0.win 2).cut (grid0.coords t) ((dat0 V c).after 2 t) = _
  rw [after0_2]
  funext y
  rw [View.read_apply]
  obtain ⟨-, -, -, -, -, e0, e1, e2⟩ := idx_facts0 t
  refine flushed_aux (fun r h => colN (X0 V c) r h * colN (X0 V c) r h) t.val hK _ (fun s h => (outsAt_apply V c t.val t.isLt s h).2) y _ ?_ ?_ ?_
  · show win0_2.index t (0 : Fin 3) * 1 + 1 * (y 0).val = t.val / 16
    have : (y 0).val < 1 := (y 0).isLt
    rw [e0]; omega
  · show win0_2.index t (1 : Fin 3) * 8 + 1 * (y 1).val = (y 1).val
    rw [e1]; omega
  · show win0_2.index t (2 : Fin 3) * 512 + 1 * (y 2).val = (y 2).val
    rw [e2]; omega

/-- Every entry (j, s, h) of a result array is in the block the last point of half j writes back. -/
theorem cover1 (i : S2x8x512.Idx) : ∃ t : Fin cfg0.N, (cfg0.win 1).flush t = true ∧ i ∈ ((cfg0.win 1).blk t).view.set := by
  have hi0 : (i 0).val < 2 := (i 0).isLt
  have hi1 : (i 1).val < 8 := (i 1).isLt
  have hi2 : (i 2).val < 512 := (i 2).isLt
  have hN : cfg0.N = 32 := N_0
  have hlt : (i 0).val * 16 + 15 < cfg0.N := by omega
  refine ⟨⟨(i 0).val * 16 + 15, hlt⟩, (flush0_1 _).mpr (by show ((i 0).val * 16 + 15) % 16 = 15; omega), ?_⟩
  show i ∈ ((View.whole main_v3_0).slice (win0_1.rect ⟨(i 0).val * 16 + 15, hlt⟩)).set
  rw [View.set_slice_whole, Rect.mem_set_unit]
  obtain ⟨-, -, e0, e1, e2, -⟩ := idx_facts0 ⟨(i 0).val * 16 + 15, hlt⟩
  have e0' : win0_1.index ⟨(i 0).val * 16 + 15, hlt⟩ (0 : Fin 3) = (i 0).val := by rw [e0]; show ((i 0).val * 16 + 15) / 16 = (i 0).val; omega
  intro a
  match a with
  | ⟨0, _⟩ => show win0_1.index _ (0 : Fin 3) * 1 ≤ (i 0).val ∧ (i 0).val < win0_1.index _ (0 : Fin 3) * 1 + 1; rw [e0']; omega
  | ⟨1, _⟩ => show win0_1.index _ (1 : Fin 3) * 8 ≤ (i 1).val ∧ (i 1).val < win0_1.index _ (1 : Fin 3) * 8 + 8; rw [e1]; omega
  | ⟨2, _⟩ => show win0_1.index _ (2 : Fin 3) * 512 ≤ (i 2).val ∧ (i 2).val < win0_1.index _ (2 : Fin 3) * 512 + 512; rw [e2]; omega

theorem cover2 (i : S2x8x512.Idx) : ∃ t : Fin cfg0.N, (cfg0.win 2).flush t = true ∧ i ∈ ((cfg0.win 2).blk t).view.set := by
  have hi0 : (i 0).val < 2 := (i 0).isLt
  have hi1 : (i 1).val < 8 := (i 1).isLt
  have hi2 : (i 2).val < 512 := (i 2).isLt
  have hN : cfg0.N = 32 := N_0
  have hlt : (i 0).val * 16 + 15 < cfg0.N := by omega
  refine ⟨⟨(i 0).val * 16 + 15, hlt⟩, (flush0_2 _).mpr (by show ((i 0).val * 16 + 15) % 16 = 15; omega), ?_⟩
  show i ∈ ((View.whole main_v3_1).slice (win0_2.rect ⟨(i 0).val * 16 + 15, hlt⟩)).set
  rw [View.set_slice_whole, Rect.mem_set_unit]
  obtain ⟨-, -, -, -, -, e0, e1, e2⟩ := idx_facts0 ⟨(i 0).val * 16 + 15, hlt⟩
  have e0' : win0_2.index ⟨(i 0).val * 16 + 15, hlt⟩ (0 : Fin 3) = (i 0).val := by rw [e0]; show ((i 0).val * 16 + 15) / 16 = (i 0).val; omega
  intro a
  match a with
  | ⟨0, _⟩ => show win0_2.index _ (0 : Fin 3) * 1 ≤ (i 0).val ∧ (i 0).val < win0_2.index _ (0 : Fin 3) * 1 + 1; rw [e0']; omega
  | ⟨1, _⟩ => show win0_2.index _ (1 : Fin 3) * 8 ≤ (i 1).val ∧ (i 1).val < win0_2.index _ (1 : Fin 3) * 8 + 8; rw [e1]; omega
  | ⟨2, _⟩ => show win0_2.index _ (2 : Fin 3) * 512 ≤ (i 2).val ∧ (i 2).val < win0_2.index _ (2 : Fin 3) * 512 + 512; rw [e2]; omega

/-- The sums' array after the region. -/
theorem final1 (c : Dev nD) : (dat0 V c).arrAt 1 cfg0.N = partArr (colN (X0 V c)) :=
  (dat0 V c).arrAt_eq_of_cover 1 (partArr (colN (X0 V c))) (flushed1 V c) cover1

/-- The squares' array after the region. -/
theorem final2 (c : Dev nD) : (dat0 V c).arrAt 2 cfg0.N = partArr (fun r h => colN (X0 V c) r h * colN (X0 V c) r h) :=
  (dat0 V c).arrAt_eq_of_cover 2 (partArr (fun r h => colN (X0 V c) r h * colN (X0 V c) r h)) (flushed2 V c) cover2

/-- The input array is not written. -/
theorem final0 (c : Dev nD) : (dat0 V c).arrAt 0 cfg0.N = V c main_v0 :=
  (dat0 V c).arrAt_in 0 rfl _

end Cert.ReferenceIdeal.Stats

end
-- ==== Proof.RefFinalize.lean ====
/-
  The reference program's host-side finalize, read at a column. Between its two kernels the reference turns the two
  [2,8,512] arrays of partial sums into a per-column scale and shift: each array is summed over its first two axes
  from the zero word; the totals t and q are multiplied by the word of 2⁻¹⁵ (the mean and the mean of squares); the
  variance is max (q·2⁻¹⁵ − (t·2⁻¹⁵)²) 0; scale = γ · (variance + ε)^(−1/2) and shift = β − t·2⁻¹⁵ · scale, with γ and β
  reshaped [1,512] → [512] and the two results reshaped back to [1,512]. Over the extended reals every one of these
  operations is the named operation at each index, the indices of a [2,8,512] array that reduce to column h are the
  sixteen (j, s, h), so the reduce at h is the double sum over j and s, and the zero word is 0. Hence at column h the
  two results are `Cert.BN.scaleOf` and `Cert.BN.shiftOf` of the column totals, and the [32768,512] input array is
  not written by any of these operations.
-/
import proofs.«100808_g2000204283482131_pallaspilot1_46_7_alg».proof.Proof.Gen.ReferenceIdeal.Launch
import proofs.«100808_g2000204283482131_pallaspilot1_46_7_alg».proof.Proof.Spec
import Idealize.ShloMosaic.Lib.StableHlo.Run
import Idealize.ShloMosaic.Lib.Pipeline.Value
import Idealize.ShloMosaic.Lib.ValueIdx
import Idealize.ShloMosaic.PureOps.Ideal.Laws

noncomputable section

namespace Cert.ReferenceIdeal.Finalize

open Idealize.ShloMosaic Idealize.ShloMosaic.TcCoe Idealize.ShloMosaic.ValueIdx Cert.ReferenceIdeal Cert.ReferenceIdeal.Gen

/-! ## The two-axis host reduce of a [2,8,512] array, read at a column -/

/-- the column totals of a [2,8,512] partial array -/
def ptot (P : S2x8x512.Idx → EReal) (h : Fin 512) : EReal := ∑ j : Fin 2, ∑ s : Fin 8, P (ix3 j s h)

/-- Dropping axes 0 and 1 of (j, s, h) leaves (h); -/
theorem drop_ix3 (j : Fin 2) (s : Fin 8) (h : Fin 512) :
    reducesTo_S2x8x512_S512_d0_1.drop (ix3 j s h) = ix1 h := by
  funext b
  match b with
  | ⟨0, _⟩ => rfl

/-- and an index that drops to (h) is (its first two coordinates, h); -/
theorem eq_ix3_of_drop (i : S2x8x512.Idx) (h : Fin 512) (e : reducesTo_S2x8x512_S512_d0_1.drop i = ix1 h) :
    i = ix3 (i 0 : Fin 2) (i 1 : Fin 8) h := by
  have e2 : (i 2 : Fin 512) = h := congrFun e 0
  subst e2
  exact eq_ix3 i

/-- so the indices the reduce sums at column h are the sixteen (j, s, h). -/
def colEmb (h : Fin 512) : Fin 2 × Fin 8 ↪ S2x8x512.Idx :=
  ⟨fun p => ix3 p.1 p.2 h, fun p q e => by
    have e0 : p.1 = q.1 := congrFun e 0
    have e1 : p.2 = q.2 := congrFun e 1
    exact Prod.ext e0 e1⟩

theorem filter_drop (h : Fin 512) :
    Finset.univ.filter (fun i : S2x8x512.Idx => reducesTo_S2x8x512_S512_d0_1.drop i = ix1 h)
      = Finset.univ.map (colEmb h) := by
  ext i
  simp only [Finset.mem_filter, Finset.mem_univ, true_and, Finset.mem_map, colEmb, Function.Embedding.coeFn_mk]
  constructor
  · intro e
    exact ⟨((i 0 : Fin 2), (i 1 : Fin 8)), (eq_ix3_of_drop i h e).symm⟩
  · rintro ⟨p, rfl⟩
    exact drop_ix3 p.1 p.2 h

/-- The host's sum over axes 0 and 1 from the zero word, at column h, is the column total: the zero word is the
    extended real zero, and the indices that reduce to (h) are the (j, s, h). -/
theorem hred_apply (P : FVec Ideal S2x8x512 .f32) (h : Fin 512) :
    Host.reduceAdd P (constant (F := Ideal) S_ .f32 0x00000000#32) reducesTo_S2x8x512_S512_d0_1 h_S_ (ix1 h) = ptot P h := by
  show Ideal.hostReduceAdd reducesTo_S2x8x512_S512_d0_1 P (Ideal.ofBits .f32 0x00000000#32) (ix1 h) = _
  unfold Ideal.hostReduceAdd
  rw [filter_drop, Finset.sum_map, Ideal.ofBits_zero_f32, zero_add, Fintype.sum_prod_type]
  rfl

/-! ## The reshapes between [1,512] and [512], and the scalar broadcasts -/

theorem cast_up {α : Type} (v : S512.Idx → α) (h : Fin 512) :
    shapeCast S1x512 v shapeCasts_S512_S1x512 (ix2 (0 : Fin 1) h) = v (ix1 h) :=
  shapeCast_apply v _ _ _ (by
    rw [Shape.rowMajor_val_one, Shape.rowMajor_val_two]
    show h.val = 0 * 512 + h.val
    omega)

theorem cast_down {α : Type} (v : S1x512.Idx → α) (h : Fin 512) :
    shapeCast S512 v shapeCasts_S1x512_S512 (ix1 h) = v (ix2 (0 : Fin 1) h) :=
  shapeCast_apply v _ _ _ (by
    rw [Shape.rowMajor_val_one, Shape.rowMajor_val_two]
    show 0 * 512 + h.val = h.val
    omega)

/-- A scalar word broadcast to [512]. -/
abbrev bc (w : BitVec 32) : FVec Ideal S512 .f32 := broadcastInDim S512 ![] bcast_S_S512 (constant (F := Ideal) S_ .f32 w)

theorem bc_apply (w : BitVec 32) (i : S512.Idx) : bc w i = Ideal.ofBits .f32 w := rfl

/-- The column sums of a partial array, as the host computes them. -/
abbrev hred (P : FVec Ideal S2x8x512 .f32) : FVec Ideal S512 .f32 :=
  Host.reduceAdd P (constant (F := Ideal) S_ .f32 0x00000000#32) reducesTo_S2x8x512_S512_d0_1 h_S_

/-! ## The scale and shift arrays the host operations compute -/

/-- γ · (max (q·2⁻¹⁵ − (t·2⁻¹⁵)²) 0 + ε)^(−1/2), as a [512] array. -/
def scaleArr (P0 P1 : FVec Ideal S2x8x512 .f32) (g : FVec Ideal S1x512 .f32) : FVec Ideal S512 .f32 :=
  mulf (shapeCast S512 g shapeCasts_S1x512_S512)
    (Host.rsqrt (addf (maximumf (subf (mulf (hred P1) (bc 0x38000000#32))
      (mulf (mulf (hred P0) (bc 0x38000000#32)) (mulf (hred P0) (bc 0x38000000#32)))) (bc 0x00000000#32)) (bc 0x3727C5AC#32)))

/-- β − t·2⁻¹⁵ · scale, as a [512] array. -/
def shiftArr (P0 P1 : FVec Ideal S2x8x512 .f32) (g b : FVec Ideal S1x512 .f32) : FVec Ideal S512 .f32 :=
  subf (shapeCast S512 b shapeCasts_S1x512_S512) (mulf (mulf (hred P0) (bc 0x38000000#32)) (scaleArr P0 P1 g))

theorem scaleArr_apply (P0 P1 : FVec Ideal S2x8x512 .f32) (g : FVec Ideal S1x512 .f32) (h : Fin 512) :
    scaleArr P0 P1 g (ix1 h) = Cert.BN.scaleOf (ptot P0 h) (ptot P1 h) (g (ix2 (0 : Fin 1) h)) := by
  unfold scaleArr Cert.BN.scaleOf
  simp only [mulf_apply, addf_apply, subf_apply, maximumf_apply, cast_down, hred_apply, bc_apply, Host.rsqrt,
    Ideal.hostUnary_rsqrt_def, Ideal.ofBits_zero_f32]

theorem shiftArr_apply (P0 P1 : FVec Ideal S2x8x512 .f32) (g b : FVec Ideal S1x512 .f32) (h : Fin 512) :
    shiftArr P0 P1 g b (ix1 h)
      = Cert.BN.shiftOf (ptot P0 h) (ptot P1 h) (g (ix2 (0 : Fin 1) h)) (b (ix2 (0 : Fin 1) h)) := by
  unfold shiftArr Cert.BN.shiftOf
  simp only [mulf_apply, subf_apply, cast_down, hred_apply, bc_apply, scaleArr_apply]

/-! ## What the buffers hold after the host operations -/

theorem v22_eq (W : Valuation τ sig (Elt Ideal)) :
    StableHlo.after (hostOps1 (F := Ideal)) W (Proc.devRef .tc main_v22)
      = shapeCast S1x512 (scaleArr (W (Proc.devRef .tc main_v3_0)) (W (Proc.devRef .tc main_v3_1)) (W (Proc.devRef .tc main_v1)))
          shapeCasts_S512_S1x512 := by
  after_results_simp
  rfl

theorem v23_eq (W : Valuation τ sig (Elt Ideal)) :
    StableHlo.after (hostOps1 (F := Ideal)) W (Proc.devRef .tc main_v23)
      = shapeCast S1x512 (shiftArr (W (Proc.devRef .tc main_v3_0)) (W (Proc.devRef .tc main_v3_1)) (W (Proc.devRef .tc main_v1))
          (W (Proc.devRef .tc main_v2))) shapeCasts_S512_S1x512 := by
  after_results_simp
  rfl

theorem after_v22 (W : Valuation τ sig (Elt Ideal)) (h : Fin 512) :
    StableHlo.after (hostOps1 (F := Ideal)) W (Proc.devRef .tc main_v22) (ix2 (0 : Fin 1) h)
      = Cert.BN.scaleOf (ptot (W (Proc.devRef .tc main_v3_0)) h) (ptot (W (Proc.devRef .tc main_v3_1)) h)
          (W (Proc.devRef .tc main_v1) (ix2 (0 : Fin 1) h)) := by
  rw [v22_eq, cast_up]
  exact scaleArr_apply _ _ _ h

theorem after_v23 (W : Valuation τ sig (Elt Ideal)) (h : Fin 512) :
    StableHlo.after (hostOps1 (F := Ideal)) W (Proc.devRef .tc main_v23) (ix2 (0 : Fin 1) h)
      = Cert.BN.shiftOf (ptot (W (Proc.devRef .tc main_v3_0)) h) (ptot (W (Proc.devRef .tc main_v3_1)) h)
          (W (Proc.devRef .tc main_v1) (ix2 (0 : Fin 1) h)) (W (Proc.devRef .tc main_v2) (ix2 (0 : Fin 1) h)) := by
  rw [v23_eq, cast_up]
  exact shiftArr_apply _ _ _ _ h

theorem after_v0 (W : Valuation τ sig (Elt Ideal)) :
    StableHlo.after (hostOps1 (F := Ideal)) W (Proc.devRef .tc main_v0) = W (Proc.devRef .tc main_v0) := by
  after_results_simp

end Cert.ReferenceIdeal.Finalize

end
-- ==== Proof.RApply.lean ====
/-
  What the reference's second kernel leaves in its result array, at exact arithmetic. Each of its 32 grid points reads
  one block of 1024 rows of x and, whole, the [1, 512] rows of per-column scale and shift the host computed, and stores
  x · scale + shift over the block. The blocks tile the [32768, 512] result.
-/
import proofs.«100808_g2000204283482131_pallaspilot1_46_7_alg».proof.Proof.Gen.ReferenceIdeal.Frame
import proofs.«100808_g2000204283482131_pallaspilot1_46_7_alg».proof.Proof.Spec
import Idealize.ShloMosaic.Lib.Pipeline.Value
import Idealize.ShloMosaic.PureOps.Ideal.Laws
import Idealize.ShloMosaic.Lib.ValueIdx

noncomputable section

open Idealize.ShloMosaic Idealize.ShloMosaic.TcCoe Idealize.SL.Sem
open Idealize.ShloMosaic.Pipeline (Dat)

namespace Cert.ReferenceIdeal.Apply

open Cert.ReferenceIdeal Cert.ReferenceIdeal.Gen Idealize.ShloMosaic.ValueIdx Cert.BN Finset

theorem hz2 : (![0, 0] : Fin 2 → Nat) = fun _ => 0 := funext fun a => by fin_cases a <;> rfl

/-! ## The payload at an index -/

/-- A [1, 512] row broadcast over the block's rows reads the row's entry of the column. -/
theorem bcast (v : FVec Ideal S1x512 .f32) (p : Fin 1024) (h : Fin 512) :
    broadcastTo S1024x512 v broadcasts_S1x512_S1024x512 (ix2 p h) = v (ix2 (0 : Fin 1) h) := by
  refine broadcastTo_apply v _ (ix2 p h) (ix2 (0 : Fin 1) h) fun a => ?_
  match a with
  | ⟨0, _⟩ => rfl
  | ⟨1, _⟩ => rfl

/-- The stored value at (p, h): the block's entry times the column's scale plus the column's shift. -/
theorem pay_apply (x : Vec Ideal S1024x512 .f32) (sc sh : Vec Ideal S1x512 .f32) (p : Fin 1024) (h : Fin 512) :
    k1_pay1 x sc sh (ix2 p h) = x (ix2 p h) * sc (ix2 (0 : Fin 1) h) + sh (ix2 (0 : Fin 1) h) := by
  simp only [k1_pay1, addf_apply, mulf_apply, bcast, shapeCast_self]

/-! ## The region at any entry contents -/

variable (V : (c : Dev nD) → (b : Ref sig .tc) → Buf (Elt Ideal) ((c : Thread nD τ).loc b))

/-- The result array as one function of the arrays the region reads. -/
def applyArr (X : (⟨2, ![32768, 512]⟩ : Shape).Idx → EReal) (sc sh : (⟨2, ![1, 512]⟩ : Shape).Idx → EReal) :
    (⟨2, ![32768, 512]⟩ : Shape).Idx → EReal :=
  fun i => X i * sc (ix2 (0 : Fin 1) ⟨(i 1).val, idx2_lt1 i⟩) + sh (ix2 (0 : Fin 1) ⟨(i 1).val, idx2_lt1 i⟩)

/-- The printed index maps over the grid: the blocks of x and of the result are the point's number; the two rows are
    held whole. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

theorem iblk_1 (c : Dev nD) (t : Fin cfg1.N) : (iblk1 V c 1 t : Vec Ideal S1x512 .f32) = V c main_v22 := by
  funext y
  unfold iblk1
  rw [View.read_apply]
  show V c main_v22 _ = V c main_v22 _
  refine congrArg (V c main_v22) (funext fun a => Fin.ext ?_)
  obtain ⟨-, -, e0, e1, -⟩ := idx_facts1 t
  match a with
  | ⟨0, _⟩ => show win1_1.index t (0 : Fin 2) * 1 + 1 * (y 0).val = (y 0).val; rw [e0]; omega
  | ⟨1, _⟩ => show win1_1.index t (1 : Fin 2) * 512 + 1 * (y 1).val = (y 1).val; rw [e1]; omega

theorem iblk_2 (c : Dev nD) (t : Fin cfg1.N) : (iblk1 V c 2 t : Vec Ideal S1x512 .f32) = V c main_v23 := by
  funext y
  unfold iblk1
  rw [View.read_apply]
  show V c main_v23 _ = V c main_v23 _
  refine congrArg (V c main_v23) (funext fun a => Fin.ext ?_)
  obtain ⟨-, -, -, -, e0, e1, -⟩ := idx_facts1 t
  match a with
  | ⟨0, _⟩ => show win1_2.index t (0 : Fin 2) * 1 + 1 * (y 0).val = (y 0).val; rw [e0]; omega
  | ⟨1, _⟩ => show win1_2.index t (1 : Fin 2) * 512 + 1 * (y 1).val = (y 1).val; rw [e1]; omega

/-- The block of x at point `t` reads row p at row 1024·t + p. -/
theorem iblk_0 (c : Dev nD) (t : Fin cfg1.N) (p : Fin 1024) (h : Fin 512) :
    (iblk1 V c 0 t : Vec Ideal S1024x512 .f32) (ix2 p h)
      = V c main_v0 (ix2 ⟨t.val * 1024 + p.val, by have := lt_of_lt_of_eq t.isLt (show cfg1.N = 32 from N_1); have := p.isLt; omega⟩ h) := by
  unfold iblk1
  rw [View.read_apply]
  show V c main_v0 _ = V c main_v0 _
  refine congrArg (V c main_v0) (funext fun a => Fin.ext ?_)
  obtain ⟨e0, e1, -⟩ := idx_facts1 t
  match a with
  | ⟨0, _⟩ => show win1_0.index t (0 : Fin 2) * 1024 + 1 * p.val = t.val * 1024 + p.val; rw [e0]; omega
  | ⟨1, _⟩ => show win1_0.index t (1 : Fin 2) * 512 + 1 * h.val = h.val; rw [e1]; omega

/-- What point `t` writes back is block `t` of `applyArr` of the arrays the region reads. -/
theorem flushed3 (c : Dev nD) (t : Fin cfg1.N) (hf : (cfg1.win 3).flush t = true) :
    (dat1 V c).flushed 3 t
      = ((cfg1.win 3).blk t).view.read (Elt Ideal) (applyArr (V c main_v0) (V c main_v22) (V c main_v23)) := by
  show (cfg1.win 3).cut (grid1.coords t) ((dat1 V c).after 3 t) = _
  rw [after1_3]
  unfold out1_3
  rw [View.canon_unit_zero hz2]
  simp only [View.ld_unit_zero (S := S1x512) hz2, View.ld_unit_zero (S := S1024x512) hz2]
  rw [iblk_1, iblk_2]
  funext y
  obtain ⟨p, h, rfl⟩ : ∃ (p : Fin 1024) (h : Fin 512), y = ix2 p h := ⟨y 0, y 1, eq_ix2 y⟩
  rw [View.read_apply]
  show k1_pay1 (iblk1 V c 0 t) (V c main_v22) (V c main_v23) (ix2 p h)
    = applyArr (V c main_v0) (V c main_v22) (V c main_v23) (((cfg1.win 3).blk t).view.emb (ix2 p h))
  rw [pay_apply, iblk_0]
  have hN : t.val < 32 := lt_of_lt_of_eq t.isLt (show cfg1.N = 32 from N_1)
  have hp := p.isLt
  obtain ⟨-, -, -, -, -, -, e0, e1⟩ := idx_facts1 t
  have hemb : ((cfg1.win 3).blk t).view.emb (ix2 p h) = ix2 ⟨t.val * 1024 + p.val, by omega⟩ h := by
    funext a
    apply Fin.ext
    match a with
    | ⟨0, _⟩ => show win1_3.index t (0 : Fin 2) * 1024 + 1 * p.val = t.val * 1024 + p.val; rw [e0]; omega
    | ⟨1, _⟩ => show win1_3.index t (1 : Fin 2) * 512 + 1 * h.val = h.val; rw [e1]; omega
  rw [hemb]
  rfl

/-- Every row r is in the block point r / 1024 writes back. -/
theorem cover3 (i : S32768x512.Idx) : ∃ t : Fin cfg1.N, (cfg1.win 3).flush t = true ∧ i ∈ ((cfg1.win 3).blk t).view.set := by
  have hi0 : (i 0).val < 32768 := (i 0).isLt
  have hi1 : (i 1).val < 512 := (i 1).isLt
  have hN : cfg1.N = 32 := N_1
  have hlt : (i 0).val / 1024 < cfg1.N := by omega
  refine ⟨⟨(i 0).val / 1024, hlt⟩, flush1_3 _, ?_⟩
  show i ∈ ((View.whole main_v24).slice (win1_3.rect ⟨(i 0).val / 1024, hlt⟩)).set
  rw [View.set_slice_whole, Rect.mem_set_unit]
  obtain ⟨-, -, -, -, -, -, e0, e1⟩ := idx_facts1 ⟨(i 0).val / 1024, hlt⟩
  have e0' : win1_3.index ⟨(i 0).val / 1024, hlt⟩ (0 : Fin 2) = (i 0).val / 1024 := e0
  intro a
  match a with
  | ⟨0, _⟩ => show win1_3.index _ (0 : Fin 2) * 1024 ≤ (i 0).val ∧ (i 0).val < win1_3.index _ (0 : Fin 2) * 1024 + 1024; rw [e0']; omega
  | ⟨1, _⟩ => show win1_3.index _ (1 : Fin 2) * 512 ≤ (i 1).val ∧ (i 1).val < win1_3.index _ (1 : Fin 2) * 512 + 512; rw [e1]; omega

/-- The result array after the region. -/
theorem final3 (c : Dev nD) : (dat1 V c).arrAt 3 cfg1.N = applyArr (V c main_v0) (V c main_v22) (V c main_v23) :=
  (dat1 V c).arrAt_eq_of_cover 3 _ (flushed3 V c) cover3

end Cert.ReferenceIdeal.Apply

end
-- ==== Proof.RValue.lean ====
/-
  The reference program's result, from the launch to the return, over the extended reals. The three arguments are
  reshaped (x to [32768, 512], γ and β to [1, 512]); the first region leaves x as entered and writes the two [2, 8, 512]
  arrays whose entry (j, s, h) sums, over the 16 blocks of half j and the 128 groups of eight rows of each block, the
  entries (and the squares of the entries) of column h at the rows ≡ s (mod 8); the host operations between the regions
  turn the two arrays into each column's scale and shift, functions of the arrays' column totals; and those totals are
  the column's totals over all 32768 rows, since (j, s, k, a) ↦ (16j + k)·1024 + 8a + s runs through every row once
  and a finite sum in a commutative monoid may be taken in any grouping. The second region then leaves entry (r, h) at
  x(r, h) · scale(h) + shift(h), which is the normalised array of the shared specification entry by entry, and the
  last reshape views it [64, 512, 512] again.
-/
import proofs.«100808_g2000204283482131_pallaspilot1_46_7_alg».proof.Proof.Gen.ReferenceIdeal.Frame
import proofs.«100808_g2000204283482131_pallaspilot1_46_7_alg».proof.Proof.RStats
import proofs.«100808_g2000204283482131_pallaspilot1_46_7_alg».proof.Proof.RefFinalize
import proofs.«100808_g2000204283482131_pallaspilot1_46_7_alg».proof.Proof.Spec
import proofs.«100808_g2000204283482131_pallaspilot1_46_7_alg».proof.Proof.Join
import proofs.«100808_g2000204283482131_pallaspilot1_46_7_alg».proof.Proof.RApply
import Idealize.ShloMosaic.Lib.StableHlo.Run
import Idealize.ShloMosaic.Lib.Pipeline.Value
import Idealize.ShloMosaic.Lib.ValueIdx

noncomputable section

open Idealize.ShloMosaic Idealize.ShloMosaic.TcCoe Idealize.ShloMosaic.ValueIdx Idealize.SL.Sem

namespace Cert.ReferenceIdeal.Value2

open Cert.ReferenceIdeal Cert.ReferenceIdeal.Gen

variable (m : (ℓ : Loc nD τ sig) → Buf (Elt Ideal) ℓ) (ρ : Dev nD → PrngReg) (c : Dev nD)

/-- The argument array viewed [32768, 512]. -/
abbrev Xv : (⟨2, ![32768, 512]⟩ : Shape).Idx → EReal :=
  shapeCast ⟨2, ![32768, 512]⟩ (m ((c : Thread nD τ).loc main_arg0) : S64x512x512.Idx → EReal) shapeCasts_S64x512x512_S32768x512

/-! ## Before the first region: the three arguments reshaped -/

theorem W1_v0 : W1 m ρ c (Proc.devRef .tc main_v0) = Xv m c := by
  show StableHlo.after (hostOps0 (F := Ideal)) (W0 m ρ c) (Proc.devRef .tc main_v0) = _
  after_results
  rfl

theorem W1_v1 : W1 m ρ c (Proc.devRef .tc main_v1)
    = shapeCast S1x512 (m ((c : Thread nD τ).loc main_arg1) : S512.Idx → EReal) shapeCasts_S512_S1x512 := by
  show StableHlo.after (hostOps0 (F := Ideal)) (W0 m ρ c) (Proc.devRef .tc main_v1) = _
  after_results
  rfl

theorem W1_v2 : W1 m ρ c (Proc.devRef .tc main_v2)
    = shapeCast S1x512 (m ((c : Thread nD τ).loc main_arg2) : S512.Idx → EReal) shapeCasts_S512_S1x512 := by
  show StableHlo.after (hostOps0 (F := Ideal)) (W0 m ρ c) (Proc.devRef .tc main_v2) = _
  after_results
  rfl

/-! ## After the first region: the input as entered, the two arrays of partial sums, γ and β untouched -/

theorem W2_v0 : W2 m ρ c (Proc.devRef .tc main_v0) = Xv m c :=
  ((W2_arr m ρ c 0).trans (Stats.final0 (V1 m ρ) c)).trans (W1_v0 m ρ c)

theorem W2_v30 : W2 m ρ c (Proc.devRef .tc main_v3_0) = Stats.partArr (Cert.BN.colN (Xv m c)) := by
  have e : W2 m ρ c (Proc.devRef .tc main_v3_0) = Stats.partArr (Cert.BN.colN (W1 m ρ c (Proc.devRef .tc main_v0))) :=
    (W2_arr m ρ c 1).trans (Stats.final1 (V1 m ρ) c)
  rw [e, W1_v0]

theorem W2_v31 : W2 m ρ c (Proc.devRef .tc main_v3_1)
    = Stats.partArr (fun r h => Cert.BN.colN (Xv m c) r h * Cert.BN.colN (Xv m c) r h) := by
  have e : W2 m ρ c (Proc.devRef .tc main_v3_1)
      = Stats.partArr (fun r h => Cert.BN.colN (W1 m ρ c (Proc.devRef .tc main_v0)) r h
          * Cert.BN.colN (W1 m ρ c (Proc.devRef .tc main_v0)) r h) :=
    (W2_arr m ρ c 2).trans (Stats.final2 (V1 m ρ) c)
  rw [e, W1_v0]

theorem W2_v1 : W2 m ρ c (Proc.devRef .tc main_v1)
    = shapeCast S1x512 (m ((c : Thread nD τ).loc main_arg1) : S512.Idx → EReal) shapeCasts_S512_S1x512 :=
  (W2_of_ne m ρ c main_v1 (by decide)).trans (W1_v1 m ρ c)

theorem W2_v2 : W2 m ρ c (Proc.devRef .tc main_v2)
    = shapeCast S1x512 (m ((c : Thread nD τ).loc main_arg2) : S512.Idx → EReal) shapeCasts_S512_S1x512 :=
  (W2_of_ne m ρ c main_v2 (by decide)).trans (W1_v2 m ρ c)

/-! ## The column totals of the partial arrays are the totals over all rows -/

theorem ptot_partArr (f : ℕ → ℕ → EReal) (h : Fin 512) :
    Finalize.ptot (Stats.partArr f) h = ∑ r ∈ Finset.range 32768, f r h.val :=
  Cert.BN.Join.joinR (fun r => f r h.val)

theorem ptot_tot (X : (⟨2, ![32768, 512]⟩ : Shape).Idx → EReal) (h : Fin 512) :
    Finalize.ptot (Stats.partArr (Cert.BN.colN X)) h = Cert.BN.tot X h.val := ptot_partArr _ h

theorem ptot_totSq (X : (⟨2, ![32768, 512]⟩ : Shape).Idx → EReal) (h : Fin 512) :
    Finalize.ptot (Stats.partArr (fun r h => Cert.BN.colN X r h * Cert.BN.colN X r h)) h = Cert.BN.totSq X h.val :=
  ptot_partArr _ h

/-! ## Before the second region: the input, and each column's scale and shift -/

theorem W3_v0 : W3 m ρ c (Proc.devRef .tc main_v0) = Xv m c :=
  (Finalize.after_v0 (W2 m ρ c)).trans (W2_v0 m ρ c)

theorem W3_v22 (h : Fin 512) : W3 m ρ c (Proc.devRef .tc main_v22) (ix2 (0 : Fin 1) h)
    = Cert.BN.scaleOf (Cert.BN.tot (Xv m c) h.val) (Cert.BN.totSq (Xv m c) h.val)
        ((m ((c : Thread nD τ).loc main_arg1) : S512.Idx → EReal) (ix1 h)) := by
  have e := Finalize.after_v22 (W2 m ρ c) h
  rw [W2_v30, W2_v31, W2_v1, ptot_tot, ptot_totSq, Finalize.cast_up] at e
  exact e

theorem W3_v23 (h : Fin 512) : W3 m ρ c (Proc.devRef .tc main_v23) (ix2 (0 : Fin 1) h)
    = Cert.BN.shiftOf (Cert.BN.tot (Xv m c) h.val) (Cert.BN.totSq (Xv m c) h.val)
        ((m ((c : Thread nD τ).loc main_arg1) : S512.Idx → EReal) (ix1 h))
        ((m ((c : Thread nD τ).loc main_arg2) : S512.Idx → EReal) (ix1 h)) := by
  have e := Finalize.after_v23 (W2 m ρ c) h
  rw [W2_v30, W2_v31, W2_v1, W2_v2, ptot_tot, ptot_totSq, Finalize.cast_up, Finalize.cast_up] at e
  exact e

/-! ## After the second region: the normalised array -/

/-- Entry (r, h) of the applied array: the entry times the column's scale plus the column's shift. -/
theorem applyArr_ix2 (X : (⟨2, ![32768, 512]⟩ : Shape).Idx → EReal) (sc sh : (⟨2, ![1, 512]⟩ : Shape).Idx → EReal)
    (r : Fin 32768) (h : Fin 512) :
    Apply.applyArr X sc sh (ix2 r h) = X (ix2 r h) * sc (ix2 (0 : Fin 1) h) + sh (ix2 (0 : Fin 1) h) := rfl

theorem apply_at (r : Fin 32768) (h : Fin 512) :
    Apply.applyArr (W3 m ρ c (Proc.devRef .tc main_v0)) (W3 m ρ c (Proc.devRef .tc main_v22))
        (W3 m ρ c (Proc.devRef .tc main_v23)) (ix2 r h)
      = Cert.BN.bnAt (Xv m c) (fun h => (m ((c : Thread nD τ).loc main_arg1) : S512.Idx → EReal) (ix1 h))
          (fun h => (m ((c : Thread nD τ).loc main_arg2) : S512.Idx → EReal) (ix1 h)) r h := by
  rw [applyArr_ix2, W3_v0, W3_v22, W3_v23]
  rfl

theorem W4_v24 : W4 m ρ c (Proc.devRef .tc main_v24)
    = Cert.BN.bnArr (Xv m c) (fun h => (m ((c : Thread nD τ).loc main_arg1) : S512.Idx → EReal) (ix1 h))
        (fun h => (m ((c : Thread nD τ).loc main_arg2) : S512.Idx → EReal) (ix1 h)) := by
  have e : W4 m ρ c (Proc.devRef .tc main_v24)
      = Apply.applyArr (W3 m ρ c (Proc.devRef .tc main_v0)) (W3 m ρ c (Proc.devRef .tc main_v22))
          (W3 m ρ c (Proc.devRef .tc main_v23)) :=
    (W4_arr m ρ c 3).trans (Apply.final3 (V3 m ρ) c)
  rw [e]
  funext i
  obtain ⟨r, h, rfl⟩ : ∃ (r : Fin 32768) (h : Fin 512), i = ix2 r h := ⟨i 0, i 1, eq_ix2 i⟩
  rw [apply_at, Cert.BN.bnArr_ix2]

/-! ## The result -/

theorem W5_v25 : W5 m ρ c (Proc.devRef .tc main_v25)
    = shapeCast S64x512x512 (W4 m ρ c (Proc.devRef .tc main_v24) : S32768x512.Idx → EReal)
        shapeCasts_S32768x512_S64x512x512 := by
  show StableHlo.after (hostOps2 (F := Ideal)) (W4 m ρ c) (Proc.devRef .tc main_v25) = _
  after_results
  rfl

theorem result : W5 m ρ c (Proc.devRef .tc main_v25)
    = Cert.BN.resultArr (m ((c : Thread nD τ).loc main_arg0)) (m ((c : Thread nD τ).loc main_arg1))
        (m ((c : Thread nD τ).loc main_arg2)) := by
  rw [W5_v25, W4_v24]
  rfl

end Cert.ReferenceIdeal.Value2

end
-- ==== Proof.lean ====
/-
  Batch normalisation over x viewed [32768, 512], two ways. Both programs run two kernels. The first sums the rows of
  each half of x into two [2, 8, 512] arrays (the entries and their squares, rows eight apart kept separate, the blocks
  of a half accumulated over a grid axis); the kernel under test takes blocks of 4096 rows, the reference blocks of
  1024. The column totals t and q are then the sums of the 16 partial rows of a column: the kernel under test adds them
  up inside its second kernel, the reference on the host. From them mean = t · 2⁻¹⁵, var = max (q · 2⁻¹⁵ − mean²) 0,
  scale = γ · (var + ε)^(−1/2), shift = β − mean · scale, and the second kernel stores x · scale + shift block by block.
  At exact arithmetic both results are the one function `Cert.BN.resultArr` of the arguments: each side's partial sums
  re-group to the same sum over all 32768 rows (a finite sum in a commutative monoid; the extended reals' infinities
  need no care, so the precondition is not used), the literals 2⁻¹⁵ and ε are the same words on both sides, and the
  kernel's reciprocal square root and the host's are one function at exact arithmetic.
  The three frames are the generated frame certificates; the idealization rewrote nothing.
-/
import proofs.«100808_g2000204283482131_pallaspilot1_46_7_alg».proof.Defs
import proofs.«100808_g2000204283482131_pallaspilot1_46_7_alg».proof.Proof.Gen.Kernel
import proofs.«100808_g2000204283482131_pallaspilot1_46_7_alg».proof.Proof.Gen.Kernel.Frame
import proofs.«100808_g2000204283482131_pallaspilot1_46_7_alg».proof.Proof.Gen.KernelIdeal
import proofs.«100808_g2000204283482131_pallaspilot1_46_7_alg».proof.Proof.Gen.KernelIdeal.Frame
import proofs.«100808_g2000204283482131_pallaspilot1_46_7_alg».proof.Proof.Gen.ReferenceIdeal
import proofs.«100808_g2000204283482131_pallaspilot1_46_7_alg».proof.Proof.Gen.ReferenceIdeal.Frame
import proofs.«100808_g2000204283482131_pallaspilot1_46_7_alg».proof.Proof.Gen.Pre_finite_inputs
import proofs.«100808_g2000204283482131_pallaspilot1_46_7_alg».proof.Proof.KRun
import proofs.«100808_g2000204283482131_pallaspilot1_46_7_alg».proof.Proof.RRun
import proofs.«100808_g2000204283482131_pallaspilot1_46_7_alg».proof.Proof.KValue
import proofs.«100808_g2000204283482131_pallaspilot1_46_7_alg».proof.Proof.RValue

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ => Cert.ReferenceIdeal.Gen.frame m ρ

/-- The idealization rewrote no operation. -/
theorem preserves : Cert.preserves_Kernel_KernelIdeal := trivial

/-- Both runs end with the result buffer at `Cert.BN.resultArr` of the arguments, which agree. -/
theorem algebraic : Cert.algebraic_KernelIdeal_ReferenceIdeal := by
  intro m ρ m' ρ' _ hagree
  refine ⟨fun c => Cert.BN.resultArr (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · exact (θ_run Cert.KernelIdeal.defs _ _).mono
      (fun r h c => ⟨((h c).1).trans (Cert.KernelIdeal.Value2.result m ρ c), (h c).2⟩)
      (Cert.KernelIdeal.RunValue.run (F := Ideal) m ρ)
  · refine (θ_run Cert.ReferenceIdeal.defs _ _).mono (fun r h c => ⟨?_, (h c).2⟩)
      (Cert.ReferenceIdeal.RunValue.run (F := Ideal) m' ρ')
    rw [(h c).1, Cert.ReferenceIdeal.Value2.result m' ρ' c, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
